-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S32x2x128x512 : Shape := ⟨4, ![32, 2, 128, 512]⟩
abbrev S32x1x128x512 : Shape := ⟨4, ![32, 1, 128, 512]⟩
abbrev S32x128x512 : Shape := ⟨3, ![32, 128, 512]⟩
abbrev S1x1 : Shape := ⟨2, ![1, 1]⟩
abbrev S1x128x512 : Shape := ⟨3, ![1, 128, 512]⟩
abbrev S128x512 : Shape := ⟨2, ![128, 512]⟩
abbrev S512x128 : Shape := ⟨2, ![512, 128]⟩
abbrev S128x128 : Shape := ⟨2, ![128, 128]⟩
abbrev S128x128x1 : Shape := ⟨3, ![128, 128, 1]⟩
abbrev S128x1x128 : Shape := ⟨3, ![128, 1, 128]⟩
abbrev S128x128x128 : Shape := ⟨3, ![128, 128, 128]⟩
abbrev S1x128x128 : Shape := ⟨3, ![1, 128, 128]⟩
abbrev S1 : Shape := ⟨1, ![1]⟩
abbrev S1x1x1 : Shape := ⟨3, ![1, 1, 1]⟩

abbrev nBuf : Space → Nat
  | .hbm => 17
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x512, .f32⟩
  | .hbm, ⟨7, _⟩ => ⟨S8192x512, .f32⟩
  | .hbm, ⟨8, _⟩ => ⟨S32x2x128x512, .f32⟩
  | .hbm, ⟨9, _⟩ => ⟨S32x1x128x512, .f32⟩
  | .hbm, ⟨10, _⟩ => ⟨S32x128x512, .f32⟩
  | .hbm, ⟨11, _⟩ => ⟨S32x1x128x512, .f32⟩
  | .hbm, ⟨12, _⟩ => ⟨S32x128x512, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x128x512, .f32⟩
  | .local _ .vmem, ⟨1, _⟩ => ⟨S1x128x512, .f32⟩
  | .local _ .vmem, ⟨2, _⟩ => ⟨S1x128x512, .f32⟩
  | .local _ .vmem, ⟨3, _⟩ => ⟨S1x128x512, .f32⟩
  | .local _ .vmem, ⟨4, _⟩ => ⟨S1x1, .f32⟩
  | .local _ .vmem, ⟨5, _⟩ => ⟨S1x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  shapeCasts_S8192x512_S32x2x128x512 : S8192x512.ShapeCasts S32x2x128x512
  slices_S32x2x128x512_S32x1x128x512_0_0_0_0 : S32x2x128x512.Slices ![0, 0, 0, 0] S32x1x128x512
  shapeCasts_S32x1x128x512_S32x128x512 : S32x1x128x512.ShapeCasts S32x128x512
  slices_S32x2x128x512_S32x1x128x512_0_1_0_0 : S32x2x128x512.Slices ![0, 1, 0, 0] S32x1x128x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  transposes_S128x512_p1_0_S512x128 : S128x512.Transposes [1, 0] S512x128
  shapeCasts_S128x128_S128x128x1 : S128x128.ShapeCasts S128x128x1
  shapeCasts_S128x128_S128x1x128 : S128x128.ShapeCasts S128x1x128
  broadcasts_S128x128x1_S128x128x128 : S128x128x1.Broadcasts S128x128x128
  broadcasts_S128x1x128_S128x128x128 : S128x1x128.Broadcasts S128x128x128
  reduces_S128x128x128_S128x128 : S128x128x128.Reduces [2] S128x128
  natLt_1_32 : 1 < 32
  shapeCasts_S128x128_S1x128x128 : S128x128.ShapeCasts S1x128x128
  reduces_S1x128x128_S1 : S1x128x128.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S32x128x512.size a
  hwx0_0 : ∀ i : grid0.Coords, EltTy.bits .f32 = 32 ∨ (Rect.block (s := S32x128x512) S1x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x512.size a ≤ S32x128x512.size a
  hwx0_1 : ∀ i : grid0.Coords, EltTy.bits .f32 = 32 ∨ (Rect.block (s := S32x128x512) S1x128x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_v5) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S32x2x128x512 : Shape := ⟨4, ![32, 2, 128, 512]⟩
abbrev S32x1x128x512 : Shape := ⟨4, ![32, 1, 128, 512]⟩
abbrev S32x128x512 : Shape := ⟨3, ![32, 128, 512]⟩
abbrev S32x128x128 : Shape := ⟨3, ![32, 128, 128]⟩
abbrev S32x128x128x1 : Shape := ⟨4, ![32, 128, 128, 1]⟩
abbrev S32x128x1x128 : Shape := ⟨4, ![32, 128, 1, 128]⟩
abbrev S32x128x128x128 : Shape := ⟨4, ![32, 128, 128, 128]⟩

abbrev nBuf : Space → Nat
  | .hbm => 106
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S8192x1, .f32⟩
  | .hbm, ⟨6, _⟩ => ⟨S8192x512, .f32⟩
  | .hbm, ⟨7, _⟩ => ⟨S8192x512, .f32⟩
  | .hbm, ⟨8, _⟩ => ⟨S32x2x128x512, .f32⟩
  | .hbm, ⟨9, _⟩ => ⟨S32x1x128x512, .f32⟩
  | .hbm, ⟨10, _⟩ => ⟨S32x128x512, .f32⟩
  | .hbm, ⟨11, _⟩ => ⟨S32x1x128x512, .f32⟩
  | .hbm, ⟨12, _⟩ => ⟨S32x128x512, .f32⟩
  | .hbm, ⟨13, _⟩ => ⟨S32x128x128, .f32⟩
  | .hbm, ⟨14, _⟩ => ⟨S_, .f32⟩
  | .hbm, ⟨15, _⟩ => ⟨S32x128x128, .f32⟩
  | .hbm, ⟨16, _⟩ => ⟨S32x128x128, .f32⟩
  | .hbm, ⟨17, _⟩ => ⟨S_, .f32⟩
  | .hbm, ⟨18, _⟩ => ⟨S32x128x128, .f32⟩
  | .hbm, ⟨19, _⟩ => ⟨S32x128x128, .f32⟩
  | .hbm, ⟨20, _⟩ => ⟨S32x128x128, .f32⟩
  | .hbm, ⟨21, _⟩ => ⟨S_, .f32⟩
  | .hbm, ⟨22, _⟩ => ⟨S32x128x128, .f32⟩
  | .hbm, ⟨23, _⟩ => ⟨S32x128x128, .f32⟩
  | .hbm, ⟨24, _⟩ => ⟨S_, .f32⟩
  | .hbm, ⟨25, _⟩ => ⟨S32x128x128, .f32⟩
  | .hbm, ⟨26, _⟩ => ⟨S32x128x128, .f32⟩
  | .hbm, ⟨27, _⟩ => ⟨S32x128x128x1, .f32⟩
  | .hbm, ⟨28, _⟩ => ⟨S_, .f32⟩
  | .hbm, ⟨29, _⟩ => ⟨S32x128x128x1, .f32⟩
  | .hbm, ⟨30, _⟩ => ⟨S32x128x128x1, .f32⟩
  | .hbm, ⟨31, _⟩ => ⟨S32x128x1x128, .f32⟩
  | .hbm, ⟨32, _⟩ => ⟨S32x128x128x128, .f32⟩
  | .hbm, ⟨33, _⟩ => ⟨S32x128x128x128, .f32⟩
  | .hbm, ⟨34, _⟩ => ⟨S32x128x128x128, .f32⟩
  | .hbm, ⟨35, _⟩ => ⟨S_, .f32⟩
  | .hbm, ⟨36, _⟩ => ⟨S32x128x128x128, .f32⟩
  | .hbm, ⟨37, _⟩ => ⟨S32x128x128x128, .i1⟩
  | .hbm, ⟨38, _⟩ => ⟨S_, .f32⟩
  | .hbm, ⟨39, _⟩ => ⟨S_, .f32⟩
  | .hbm, ⟨40, _⟩ => ⟨S32x128x128x128, .f32⟩
  | .hbm, ⟨41, _⟩ => ⟨S32x128x128x128, .f32⟩
  | .hbm, ⟨42, _⟩ => ⟨S_, .f32⟩
  | .hbm, ⟨43, _⟩ => ⟨S32x128x128, .f32⟩
  | .hbm, ⟨44, _⟩ => ⟨S32x128x128x128, .i32⟩
  | .hbm, ⟨45, _⟩ => ⟨S_, .i32⟩
  | .hbm, ⟨46, _⟩ => ⟨S32x128x128, .i32⟩
  | .hbm, ⟨47, _⟩ => ⟨S32x128x128, .f32⟩
  | .hbm, ⟨48, _⟩ => ⟨S_, .f32⟩
  | .hbm, ⟨49, _⟩ => ⟨S32x128x128, .f32⟩
  | .hbm, ⟨50, _⟩ => ⟨S32x128x128, .f32⟩
  | .hbm, ⟨51, _⟩ => ⟨S_, .f32⟩
  | .hbm, ⟨52, _⟩ => ⟨S32x128x128, .f32⟩
  | .hbm, ⟨53, _⟩ => ⟨S32x128x128, .f32⟩
  | .hbm, ⟨54, _⟩ => ⟨S32x128x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S32x128x128, .f32⟩
  | .hbm, ⟨60, _⟩ => ⟨S_, .f32⟩
  | .hbm, ⟨61, _⟩ => ⟨S32x128x128, .f32⟩
  | .hbm, ⟨62, _⟩ => ⟨S32x128x128, .f32⟩
  | .hbm, ⟨63, _⟩ => ⟨S_, .f32⟩
  | .hbm, ⟨64, _⟩ => ⟨S32x128x128, .f32⟩
  | .hbm, ⟨65, _⟩ => ⟨S32x128x128, .f32⟩
  | .hbm, ⟨66, _⟩ => ⟨S32x128x128, .f32⟩
  | .hbm, ⟨67, _⟩ => ⟨S_, .f32⟩
  | .hbm, ⟨68, _⟩ => ⟨S32x128x128, .f32⟩
  | .hbm, ⟨69, _⟩ => ⟨S32x128x128, .f32⟩
  | .hbm, ⟨70, _⟩ => ⟨S_, .f32⟩
  | .hbm, ⟨71, _⟩ => ⟨S32x128x128, .f32⟩
  | .hbm, ⟨72, _⟩ => ⟨S32x128x128, .f32⟩
  | .hbm, ⟨73, _⟩ => ⟨S32x128x128x1, .f32⟩
  | .hbm, ⟨74, _⟩ => ⟨S_, .f32⟩
  | .hbm, ⟨75, _⟩ => ⟨S32x128x128x1, .f32⟩
  | .hbm, ⟨76, _⟩ => ⟨S32x128x128x1, .f32⟩
  | .hbm, ⟨77, _⟩ => ⟨S32x128x1x128, .f32⟩
  | .hbm, ⟨78, _⟩ => ⟨S32x128x128x128, .f32⟩
  | .hbm, ⟨79, _⟩ => ⟨S32x128x128x128, .f32⟩
  | .hbm, ⟨80, _⟩ => ⟨S32x128x128x128, .f32⟩
  | .hbm, ⟨81, _⟩ => ⟨S_, .f32⟩
  | .hbm, ⟨82, _⟩ => ⟨S32x128x128x128, .f32⟩
  | .hbm, ⟨83, _⟩ => ⟨S32x128x128x128, .i1⟩
  | .hbm, ⟨84, _⟩ => ⟨S_, .f32⟩
  | .hbm, ⟨85, _⟩ => ⟨S_, .f32⟩
  | .hbm, ⟨86, _⟩ => ⟨S32x128x128x128, .f32⟩
  | .hbm, ⟨87, _⟩ => ⟨S32x128x128x128, .f32⟩
  | .hbm, ⟨88, _⟩ => ⟨S_, .f32⟩
  | .hbm, ⟨89, _⟩ => ⟨S32x128x128, .f32⟩
  | .hbm, ⟨90, _⟩ => ⟨S32x128x128x128, .i32⟩
  | .hbm, ⟨91, _⟩ => ⟨S_, .i32⟩
  | .hbm, ⟨92, _⟩ => ⟨S32x128x128, .i32⟩
  | .hbm, ⟨93, _⟩ => ⟨S32x128x128, .f32⟩
  | .hbm, ⟨94, _⟩ => ⟨S_, .f32⟩
  | .hbm, ⟨95, _⟩ => ⟨S32x128x128, .f32⟩
  | .hbm, ⟨96, _⟩ => ⟨S32x128x128, .f32⟩
  | .hbm, ⟨97, _⟩ => ⟨S_, .f32⟩
  | .hbm, ⟨98, _⟩ => ⟨S32x128x128, .f32⟩
  | .hbm, ⟨99, _⟩ => ⟨S32x128x128, .f32⟩
  | .hbm, ⟨100, _⟩ => ⟨S32x128x128, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_call1_v0 : Ref sig .tc := ⟨.hbm, 39, rfl⟩
abbrev main_call1_v1 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_c : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_cst_10 : Ref sig .tc := ⟨.hbm, 57, rfl⟩
abbrev main_v38 : Ref sig .tc := ⟨.hbm, 58, rfl⟩
abbrev main_v39 : Ref sig .tc := ⟨.hbm, 59, rfl⟩
abbrev main_cst_11 : Ref sig .tc := ⟨.hbm, 60, rfl⟩
abbrev main_v40 : Ref sig .tc := ⟨.hbm, 61, rfl⟩
abbrev main_v41 : Ref sig .tc := ⟨.hbm, 62, rfl⟩
abbrev main_cst_12 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_13 : Ref sig .tc := ⟨.hbm, 67, rfl⟩
abbrev main_v45 : Ref sig .tc := ⟨.hbm, 68, rfl⟩
abbrev main_v46 : Ref sig .tc := ⟨.hbm, 69, rfl⟩
abbrev main_cst_14 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_16 : Ref sig .tc := ⟨.hbm, 81, rfl⟩
abbrev main_v56 : Ref sig .tc := ⟨.hbm, 82, rfl⟩
abbrev main_v57 : Ref sig .tc := ⟨.hbm, 83, rfl⟩
abbrev main_cst_17 : Ref sig .tc := ⟨.hbm, 84, rfl⟩
abbrev main_call2_v0 : Ref sig .tc := ⟨.hbm, 85, rfl⟩
abbrev main_call2_v1 : Ref sig .tc := ⟨.hbm, 86, rfl⟩
abbrev main_v58 : Ref sig .tc := ⟨.hbm, 87, rfl⟩
abbrev main_cst_18 : Ref sig .tc := ⟨.hbm, 88, rfl⟩
abbrev main_v59 : Ref sig .tc := ⟨.hbm, 89, rfl⟩
abbrev main_v60 : Ref sig .tc := ⟨.hbm, 90, rfl⟩
abbrev main_c_19 : Ref sig .tc := ⟨.hbm, 91, rfl⟩
abbrev main_v61 : Ref sig .tc := ⟨.hbm, 92, rfl⟩
abbrev main_v62 : Ref sig .tc := ⟨.hbm, 93, rfl⟩
abbrev main_cst_20 : Ref sig .tc := ⟨.hbm, 94, rfl⟩
abbrev main_v63 : Ref sig .tc := ⟨.hbm, 95, rfl⟩
abbrev main_v64 : Ref sig .tc := ⟨.hbm, 96, rfl⟩
abbrev main_cst_21 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_22 : Ref sig .tc := ⟨.hbm, 101, rfl⟩
abbrev main_v68 : Ref sig .tc := ⟨.hbm, 102, rfl⟩
abbrev main_cst_23 : Ref sig .tc := ⟨.hbm, 103, rfl⟩
abbrev main_v69 : Ref sig .tc := ⟨.hbm, 104, rfl⟩
abbrev main_v70 : Ref sig .tc := ⟨.hbm, 105, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  shapeCasts_S8192x512_S32x2x128x512 : S8192x512.ShapeCasts S32x2x128x512
  slices_S32x2x128x512_S32x1x128x512_0_0_0_0 : S32x2x128x512.Slices ![0, 0, 0, 0] S32x1x128x512
  shapeCasts_S32x1x128x512_S32x128x512 : S32x1x128x512.ShapeCasts S32x128x512
  slices_S32x2x128x512_S32x1x128x512_0_1_0_0 : S32x2x128x512.Slices ![0, 1, 0, 0] S32x1x128x512
  bcast_S_S32x128x128 : S_.BroadcastsInDim S32x128x128 (![] : Fin 0 → Fin S32x128x128.rank)
  bcast_S32x128x128_S32x128x128x1_0_1_2 : S32x128x128.BroadcastsInDim S32x128x128x1 (![0, 1, 2] : Fin 3 → Fin S32x128x128x1.rank)
  bcast_S_S32x128x128x1 : S_.BroadcastsInDim S32x128x128x1 (![] : Fin 0 → Fin S32x128x128x1.rank)
  bcast_S32x128x128_S32x128x1x128_0_1_3 : S32x128x128.BroadcastsInDim S32x128x1x128 (![0, 1, 3] : Fin 3 → Fin S32x128x1x128.rank)
  bcast_S32x128x128x1_S32x128x128x128_0_1_2_3 : S32x128x128x1.BroadcastsInDim S32x128x128x128 (![0, 1, 2, 3] : Fin 4 → Fin S32x128x128x128.rank)
  bcast_S32x128x1x128_S32x128x128x128_0_1_2_3 : S32x128x1x128.BroadcastsInDim S32x128x128x128 (![0, 1, 2, 3] : Fin 4 → Fin S32x128x128x128.rank)
  bcast_S_S32x128x128x128 : S_.BroadcastsInDim S32x128x128x128 (![] : Fin 0 → Fin S32x128x128x128.rank)
  reducesTo_S32x128x128x128_S32x128x128_d3 : S32x128x128x128.ReducesTo [3] S32x128x128
  natLt_1_32 : 1 < 32
  reducesTo_S32x128x128_S_d0_1_2 : S32x128x128.ReducesTo [0, 1, 2] S_
  dot_S32x128x512_S32x128x512_S32x128x128_2_2_1_1_0_0_wf : DotDims.WF S32x128x512 S32x128x512 S32x128x128 [2] [2] [1] [1] [0] [0]

variable [Facts₀]

def dot_S32x128x512_S32x128x512_S32x128x128_2_2_1_1_0_0 : DotDims S32x128x512 S32x128x512 S32x128x128 where
  lhsContracting := [2]
  rhsContracting := [2]
  lhsNonContracting := [1]
  rhsNonContracting := [1]
  lhsBatch := [0]
  rhsBatch := [0]
  wf := dot_S32x128x512_S32x128x512_S32x128x128_2_2_1_1_0_0_wf

class Facts : Prop extends Facts₀ where

variable [Facts]
-- ==== Proof.Pieces.lean ====
/-
  What one run of the kernel body leaves behind, in each of its two control cases, at any float instance.

  The body adds one number — `added x0 x1`, a function of the two loaded patches — to a one-element accumulator and
  copies the accumulator to the one-element output block. At the first grid point it first stores zero into the
  accumulator and reads that zero back; at every later point it reads what the previous point left. So after the body:
    first point :  accumulator = output = 0 + added
    later points:  accumulator = output = previous + added.
  Each statement is the covering store's payload read back through whole one-element buffers.
-/
import proofs.«133893_j4896262717964_1_alg».proof.Proof.Gen.KernelIdeal.Frame
import Idealize.ShloMosaic.Lib.Pipeline.Value
import Idealize.ShloMosaic.Lib.Tactic

noncomputable section

namespace Cert.KernelIdeal.PieceValue

open Cert.KernelIdeal Cert.KernelIdeal.Gen Idealize.ShloMosaic Idealize.ShloMosaic.TcCoe Idealize.SL.Sem
open Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole shape of what several stores left, the LAST of them through the whole shape, reads that
    last store's payload. -/
theorem readCov_cons_unit_zero {Val : EltTy → Type} [∀ e, Nonempty (Val e)] {S : Shape} {e : EltTy} {sig' : RefSig}
    {κ : Kind} {sp : Space} (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩), View.canon_cons_unit_zero rfl,
    View.ld_unit_zero rfl]

/-- The number the body adds to its accumulator, from the two loaded patches. -/
def added (x0 x1 : Vec F S1x128x512 .f32) : F .f32 :=
  k0_pay9 (k0_pay5 x1) (k0_pay6 x0 x1) (k0_pay7 x0) (k0_pay8 x0 x1)

/-- LATER POINTS, the accumulator: what the previous point left, plus this point's number. -/
theorem scratch_later (c : Dev nD) (i : grid0.Coords) (arg1 : Memref sig .tc .vmem S1x128x512 .f32) (harg1 : arg1.IsWhole) (arg2 : Memref sig .tc .vmem S1x128x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 x1 : Vec F S1x128x512 .f32) (xs0 : Vec F S1x1 .f32) :
    sout0_B_0 c i arg1 harg1 arg2 harg2 arg3 harg3 arg4 harg4 hc0 x0 x1 xs0 = k0_pay1 (added x0 x1) xs0 := by
  unfold sout0_B_0
  rw [View.read_writes_eq_canon _ _ _ (scover0_B_0 c i arg1 harg1 arg2 harg2 arg3 harg3 arg4 harg4 hc0 x0 x1 xs0)]
  unfold kernelRun0_B
  dsimp only
  sl_unfold_words
  rw [View.canon_unit_zero hz2]
  simp only [View.readAt_eq_ld, harg1.read_unread, harg2.read_unread, harg4.read_unread,
    View.ld_unit_zero (S := S1x128x512) hz3, View.ld_unit_zero (S := S1x1) hz2]
  rfl

/-- LATER POINTS, the output block: the accumulator just stored, read back. -/
theorem out_later (c : Dev nD) (i : grid0.Coords) (arg1 : Memref sig .tc .vmem S1x128x512 .f32) (harg1 : arg1.IsWhole) (arg2 : Memref sig .tc .vmem S1x128x512 .f32) (harg2 : arg2.IsWhole) (arg3 : Memref sig .tc .vmem S1x1 .f32) (harg3 : arg3.IsWhole) (arg4 : Memref sig .tc .vmem S1x1 .f32) (harg4 : arg4.IsWhole) (hc0 : ¬cond0_0 i)
    (x0 x1 : Vec F S1x128x512 .f32) (xs0 : Vec F S1x1 .f32) :
    out0_B_2 c i arg1 harg1 arg2 harg2 arg3 harg3 arg4 harg4 hc0 x0 x1 xs0 = k0_pay1 (added x0 x1) xs0 := by
  unfold out0_B_2
  rw [View.read_writes_eq_canon _ _ _ (cover0_B_2 c i arg1 harg1 arg2 harg2 arg3 harg3 arg4 harg4 hc0 x0 x1 xs0)]
  unfold kernelRun0_B
  dsimp only
  sl_unfold_words
  rw [View.canon_unit_zero hz2, View.readCov_unit_zero _ hz2]
  simp only [View.readAt_eq_ld, harg1.read_unread, harg2.read_unread, harg4.read_unread,
    View.ld_unit_zero (S := S1x128x512) hz3, View.ld_unit_zero (S := S1x1) hz2]
  rfl

/-- FIRST POINT, the accumulator: the zero just stored, plus this point's number. -/
theorem scratch_first (c : Dev nD) (i : grid0.Coords) (arg1 : Memref sig .tc .vmem S1x128x512 .f32) (harg1 : arg1.IsWhole) (arg2 : Memref sig .tc .vmem S1x128x512 .f32) (harg2 : arg2.IsWhole) (arg3 : Memref sig .tc .vmem S1x1 .f32) (harg3 : arg3.IsWhole) (arg4 : Memref sig .tc .vmem S1x1 .f32) (harg4 : arg4.IsWhole) (hc0 : cond0_0 i)
    (x0 x1 : Vec F S1x128x512 .f32) :
    sout0_A_0 c i arg1 harg1 arg2 harg2 arg3 harg3 arg4 harg4 hc0 x0 x1 = k0_pay1 (added x0 x1) k0_pay2 := by
  unfold sout0_A_0
  rw [View.read_writes_eq_canon _ _ _ (scover0_A_0 c i arg1 harg1 arg2 harg2 arg3 harg3 arg4 harg4 hc0 x0 x1)]
  unfold kernelRun0_A
  dsimp only
  sl_unfold_words
  rw [View.canon_cons_unit_zero hz2, View.readCov_unit_zero _ hz2]
  simp only [View.readAt_eq_ld, harg1.read_unread, harg2.read_unread,
    View.ld_unit_zero (S := S1x128x512) hz3]
  rfl

/-- FIRST POINT, the output block: the same, read back. -/
theorem out_first (c : Dev nD) (i : grid0.Coords) (arg1 : Memref sig .tc .vmem S1x128x512 .f32) (harg1 : arg1.IsWhole) (arg2 : Memref sig .tc .vmem S1x128x512 .f32) (harg2 : arg2.IsWhole) (arg3 : Memref sig .tc .vmem S1x1 .f32) (harg3 : arg3.IsWhole) (arg4 : Memref sig .tc .vmem S1x1 .f32) (harg4 : arg4.IsWhole) (hc0 : cond0_0 i)
    (x0 x1 : Vec F S1x128x512 .f32) :
    out0_A_2 c i arg1 harg1 arg2 harg2 arg3 harg3 arg4 harg4 hc0 x0 x1 = k0_pay1 (added x0 x1) k0_pay2 := by
  unfold out0_A_2
  rw [View.read_writes_eq_canon _ _ _ (cover0_A_2 c i arg1 harg1 arg2 harg2 arg3 harg3 arg4 harg4 hc0 x0 x1)]
  unfold kernelRun0_A
  dsimp only
  sl_unfold_words
  rw [View.canon_unit_zero hz2, readCov_cons_unit_zero _ hz2, View.readCov_unit_zero _ hz2]
  simp only [View.readAt_eq_ld, harg1.read_unread, harg2.read_unread,
    View.ld_unit_zero (S := S1x128x512) hz3]
  rfl

end Cert.KernelIdeal.PieceValue

end
-- ==== Proof.Spec.lean ====
/-
  The triplet loss of one pair of patches, as a function on the extended reals, and the one algebraic law the
  certificate rests on.

  For two patches `U W : 128 × 512` (rows assumed normalized by the caller; nothing here uses it):
    gram U W i j   = Σ_d U i d · W j d                                  (an inner product of two rows)
    dist U W i j   = 2 − 2 · gram U W i j                                (the squared distance of two unit rows)
    hinge P Q i j k = (1 + P i j) − Q i k                                 (margin + positive distance − negative distance)
    quo P Q i j    = (Σ_k [hinge > 0] · hinge) / ((128 − #{k | hinge ≤ 0}) + ε)
    part U W       = Σ_i Σ_j quo (dist U U) (dist U W) i j
    total U W      = part U W + part W U.
  The indicator of `hinge ≤ 0` is kept as the one-bit word the comparison produces, and its count as the sum of the
  words read as numbers, so that both programs meet this text without any case analysis.

  The law: dividing by the positive real 524288 distributes over a sum of ANY two extended reals (infinities included),
  because multiplying by a nonnegative finite number does.
-/
import Idealize.ShloMosaic.PureOps.Ideal.Laws
import Idealize.ShloMosaic.Lib.ValueIdx

open scoped BigOperators

noncomputable section

namespace Cert.Triplet

open Idealize.ShloMosaic

/-- The inner product of row `i` of `U` and row `j` of `W`. -/
def gram (U W : Fin 128 → Fin 512 → EReal) (i j : Fin 128) : EReal := ∑ d : Fin 512, U i d * W j d

/-- `2 − 2 · ⟨U i, W j⟩`: for unit rows, the squared distance between them. -/
def dist (U W : Fin 128 → Fin 512 → EReal) (i j : Fin 128) : EReal :=
  Ideal.ofBits .f32 0x40000000#32 - Ideal.ofBits .f32 0x40000000#32 * gram U W i j

/-- The triplet margin at anchor `i`, positive `j`, negative `k`: `(1 + P i j) − Q i k`. -/
def hinge (P Q : Fin 128 → Fin 128 → EReal) (i j k : Fin 128) : EReal :=
  Ideal.ofBits .f32 0x3F800000#32 + P i j - Q i k

/-- The one-bit word of `x ≤ 0`. -/
def below (x : EReal) : BitVec 1 := Ideal.cmp .ole x (Ideal.ofBits .f32 0x00000000#32)

/-- The positive part of the margins summed over the negatives, over the number of negatives whose margin is positive
    (plus ε). -/
def quo (P Q : Fin 128 → Fin 128 → EReal) (i j : Fin 128) : EReal :=
  Ideal.div
    (∑ k : Fin 128, Scalar.select (below (hinge P Q i j k)) (Ideal.ofBits .f32 0x00000000#32) (hinge P Q i j k))
    (Ideal.ofBits .f32 0x43000000#32
        - (∑ k : Fin 128, (FloatOps.sitofp (F := Ideal) .f32 ((below (hinge P Q i j k)).setWidth 32) : EReal))
      + Ideal.ofBits .f32 0x3089705F#32)

/-- One direction of the loss of a pair of patches, summed (not averaged) over anchors and positives. -/
def part (U W : Fin 128 → Fin 512 → EReal) : EReal :=
  ∑ i : Fin 128, ∑ j : Fin 128, quo (dist U U) (dist U W) i j

/-- Both directions. -/
def total (U W : Fin 128 → Fin 512 → EReal) : EReal := part U W + part W U

/-- The divisor `32 · 128 · 128` is the real number 524288. -/
theorem count_eq : Ideal.ofBits .f32 0x49000000#32 = ((524288 : ℝ) : EReal) := by
  simp [Ideal.ofBits, Ideal.ieee, -EReal.coe_mul]; norm_num

/-- Division by 524288 distributes over the sum of any two extended reals. -/
theorem div_count_add (x y : EReal) :
    Ideal.div (x + y) (Ideal.ofBits .f32 0x49000000#32)
      = Ideal.div x (Ideal.ofBits .f32 0x49000000#32) + Ideal.div y (Ideal.ofBits .f32 0x49000000#32) := by
  have h : (524288 : ℝ) ≠ 0 := by norm_num
  rw [count_eq, Ideal.div_coe h, Ideal.div_coe h, Ideal.div_coe h]
  exact EReal.right_distrib_of_nonneg_of_ne_top (EReal.coe_nonneg.mpr (by norm_num)) (EReal.coe_ne_top _) x y

/-- Patch `b` of a stack of 32 patches. -/
def patch (X : (⟨3, ![32, 128, 512]⟩ : Shape).Idx → EReal) (b : Fin 32) : Fin 128 → Fin 512 → EReal :=
  fun n d => X (ValueIdx.ix3 b n d)

/-- Summing both directions pair by pair and dividing once is dividing each direction's sum over all pairs and adding:
    a sum of sums regroups in any commutative monoid, a zero initial value adds nothing, and the division distributes. -/
theorem loss_split (T C : (⟨3, ![32, 128, 512]⟩ : Shape).Idx → EReal) :
    Ideal.div (∑ b : Fin 32, total (patch T b) (patch C b)) (Ideal.ofBits .f32 0x49000000#32)
      = Ideal.div (Ideal.ofBits .f32 0x00000000#32 + ∑ b : Fin 32, part (patch T b) (patch C b)) (Ideal.ofBits .f32 0x49000000#32)
        + Ideal.div (Ideal.ofBits .f32 0x00000000#32 + ∑ b : Fin 32, part (patch C b) (patch T b)) (Ideal.ofBits .f32 0x49000000#32) := by
  rw [Ideal.ofBits_zero_f32, zero_add, zero_add, ← div_count_add, ← Finset.sum_add_distrib]
  rfl

end Cert.Triplet

end
-- ==== Proof.LibLayout3.lean ====
/-
  Rank-3 layout operations read at an index given by coordinates: a matrix cast to a stack of columns
  `[a, b] → [a, b, 1]` or of rows `[a, b] → [a, 1, b]`, and either broadcast along its unit axis to `[a, b, c]`; and a
  one-element vector cast to `[1, 1, 1]` and read at its one position. Each is the parent lemma of the value library
  with the per-axis arithmetic done.
-/
import Idealize.ShloMosaic.Lib.Pipeline.Value
import Idealize.ShloMosaic.Lib.ValueIdx
import Idealize.ShloMosaic.Lib.ValueLayout

namespace Cert.Layout3

open Idealize.ShloMosaic Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b]` array cast to `[a, 1, b]` reads, at `(i, u, k)`, the operand at `(i, k)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (k : Fin b) :
    shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A stack of columns `[a, b, 1]` broadcast to `[a, b, c]` does not depend on the last coordinate. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A stack of rows `[a, 1, c]` broadcast to `[a, b, c]` does not depend on the middle coordinate. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A one-element vector cast to `[1, 1, 1]` and read at its one position is its element. -/
theorem extractAt_shapeCast_one (x : (⟨1, ![1]⟩ : Shape).Idx → α)
    (h : (⟨1, ![1]⟩ : Shape).ShapeCasts ⟨3, ![1, 1, 1]⟩)
    (hp : ∀ a, (![0, 0, 0] : Fin 3 → ℕ) a < (⟨3, ![1, 1, 1]⟩ : Shape).size a) :
    extractAt ![0, 0, 0] (shapeCast ⟨3, ![1, 1, 1]⟩ x h) hp = x (ix1 (0 : Fin 1)) := by
  unfold extractAt
  exact shapeCast_apply x h _ _ (by
    rw [Shape.rowMajor_val_three, Shape.rowMajor_val_one]
    rfl)

end Cert.Layout3
-- ==== Proof.LibTrailingSum.lean ====
/-
  A host sum over the two trailing axes of a rank-3 array, read at a row. The host's `reduce add` at the ideal values is
  the initial value plus the sum of the operand over the source indices that drop to the result index; when the dropped
  axes are the last two of `[n, a, b]`, those indices are exactly `(r, p, q)` for `p < a`, `q < b`, so the sum is the
  double sum over the two trailing coordinates. Also: a sum over a rank-3 index set as the triple sum over coordinates.
-/
import Idealize.ShloMosaic.PureOps.Ideal.Laws
import Idealize.ShloMosaic.Lib.ValueIdx

open scoped BigOperators

namespace Cert.TrailingSum

open Idealize.ShloMosaic Idealize.ShloMosaic.ValueIdx

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- With the two trailing axes reduced, the one kept axis is the leading one, whatever the extents. -/
theorem kept_trailing {n a b : ℕ} : (⟨3, ![n, a, b]⟩ : Shape).kept [1, 2] = [0] := rfl

/-- The dropped index's one coordinate is the source's leading coordinate. -/
theorem drop_val {n a b : ℕ} (h' : (⟨3, ![n, a, b]⟩ : Shape).ReducesTo [1, 2] ⟨1, ![n]⟩)
    (i : (⟨3, ![n, a, b]⟩ : Shape).Idx) : (h'.drop i 0 : ℕ) = (i 0).val :=
  Shape.ReducesTo.drop_apply_val_of_eq h' i 0 0 (by rw [kept_trailing]; exact Nat.zero_lt_one)
    (by simp only [kept_trailing]; rfl)

/-- Dropping the two trailing axes of `(r, p, q)` leaves `r`. -/
theorem drop_ix3 {n a b : ℕ} (h' : (⟨3, ![n, a, b]⟩ : Shape).ReducesTo [1, 2] ⟨1, ![n]⟩)
    (r : Fin n) (p : Fin a) (q : Fin b) : h'.drop (ix3 r p q) = ix1 r := by
  funext d
  match d with
  | ⟨0, _⟩ => exact Fin.ext (drop_val h' (ix3 r p q))

/-- An index that drops to `r` has `r` as its leading coordinate. -/
theorem lead_of_drop {n a b : ℕ} (h' : (⟨3, ![n, a, b]⟩ : Shape).ReducesTo [1, 2] ⟨1, ![n]⟩)
    (i : (⟨3, ![n, a, b]⟩ : Shape).Idx) (r : Fin n) (h : h'.drop i = ix1 r) : (i 0).val = r.val := by
  have h0 := congrArg (fun j : (⟨1, ![n]⟩ : Shape).Idx => (j 0).val) h
  exact (drop_val h' i).symm.trans h0

/-- The host's sum of an `[n, a, b]` array over its two trailing axes, at row `r`: the initial value plus the double
    sum over the trailing coordinates. -/
theorem hostReduceAdd_trailing2 {n a b : ℕ} (h' : (⟨3, ![n, a, b]⟩ : Shape).ReducesTo [1, 2] ⟨1, ![n]⟩)
    (x : (⟨3, ![n, a, b]⟩ : Shape).Idx → EReal) (init : EReal) (r : Fin n) :
    Ideal.hostReduceAdd h' x init (ix1 r) = init + ∑ p : Fin a, ∑ q : Fin b, x (ix3 r p q) := by
  unfold Ideal.hostReduceAdd
  congr 1
  rw [← Fintype.sum_prod_type' (fun (p : Fin a) (q : Fin b) => x (ix3 r p q))]
  refine Finset.sum_nbij' (fun i => ((i 1 : Fin a), (i 2 : Fin b))) (fun pq => ix3 r pq.1 pq.2)
    (fun _ _ => Finset.mem_univ _) (fun pq _ => ?_) (fun i hi => ?_) (fun _ _ => rfl) (fun i hi => ?_)
  · exact Finset.mem_filter.mpr ⟨Finset.mem_univ _, drop_ix3 h' r pq.1 pq.2⟩
  · have h0 := lead_of_drop h' i r (Finset.mem_filter.mp hi).2
    funext d
    match d with
    | ⟨0, _⟩ => exact Fin.ext h0.symm
    | ⟨1, _⟩ => rfl
    | ⟨2, _⟩ => rfl
  · have h0 := lead_of_drop h' i r (Finset.mem_filter.mp hi).2
    refine congrArg x ?_
    funext d
    match d with
    | ⟨0, _⟩ => exact Fin.ext h0
    | ⟨1, _⟩ => rfl
    | ⟨2, _⟩ => rfl

end Cert.TrailingSum
-- ==== Proof.KernelPay.lean ====
/-
  What the kernel body adds to its accumulator at one grid point, as a function of the two patches it loaded.

  The body forms the four Gram matrices T·Tᵀ, T·Cᵀ, C·Cᵀ, C·Tᵀ of the two loaded patches (each a matrix product into a
  zero accumulator, so at the ideal values the plain sum of products over the 512 features), turns each into
  `2 − 2·gram`, and for each direction builds the rank-3 array of margins `(1 + P i j) − Q i k` by casting `P` to a
  stack of columns and `Q` to a stack of rows and broadcasting both. The positive margins are summed over `k`, the
  non-positive ones counted, the quotient taken, and the 128 × 128 quotients summed. Read index by index this is
  `Cert.Triplet.total` of the two patches' rows.
-/
import proofs.«133893_j4896262717964_1_alg».proof.Proof.Gen.KernelIdeal.Skeleton
import proofs.«133893_j4896262717964_1_alg».proof.Proof.Spec
import proofs.«133893_j4896262717964_1_alg».proof.Proof.LibLayout3
import proofs.«133893_j4896262717964_1_alg».proof.Proof.LibTrailingSum
import Idealize.ShloMosaic.PureOps.Ideal.Laws
import Idealize.ShloMosaic.Lib.ValueIdx
import Idealize.ShloMosaic.Lib.ValueLayout

open scoped BigOperators

noncomputable section

namespace Cert.KernelIdeal.PayValue

open Cert.KernelIdeal Cert.KernelIdeal.Gen Idealize.ShloMosaic Idealize.ShloMosaic.ValueIdx Cert.Triplet Cert.Layout3

/-- The rows of a loaded `[1, 128, 512]` block. -/
def rows (x : Vec Ideal S1x128x512 .f32) : Fin 128 → Fin 512 → EReal := fun n d => x (ix3 (0 : Fin 1) n d)

/-- The body's matrix product: rows times columns, contracted over the 512 features. -/
abbrev D := dot_S128x512_S512x128_S128x128_1_0_0_1_n_n

theorem lhs_0 (i : S128x128.Idx) (q : D.contr.Idx) : (D.lhsIdx i q 0).val = (i 0).val := by
  unfold DotDims.lhsIdx
  rw [dif_neg (show ¬(0 : Fin S128x512.rank) ∈ D.lhsBatch by decide),
    dif_pos (show (0 : Fin S128x512.rank) ∈ D.lhsNonContracting by decide)]
  rfl
theorem lhs_1 (i : S128x128.Idx) (q : D.contr.Idx) : (D.lhsIdx i q 1).val = (q ⟨0, by decide⟩).val :=
  D.lhsIdx_val_of_single rfl i q
theorem rhs_0 (i : S128x128.Idx) (q : D.contr.Idx) : (D.rhsIdx i q 0).val = (q ⟨0, by decide⟩).val :=
  D.rhsIdx_val_of_single rfl i q
theorem rhs_1 (i : S128x128.Idx) (q : D.contr.Idx) : (D.rhsIdx i q 1).val = (i 1).val := by
  unfold DotDims.rhsIdx
  rw [dif_neg (show ¬(1 : Fin S512x128.rank) ∈ D.rhsBatch by decide),
    dif_pos (show (1 : Fin S512x128.rank) ∈ D.rhsNonContracting by decide)]
  rfl

/-- A matrix product into the zero accumulator, at `(i, j)`: the sum over the features of row `i` times column `j`. -/
theorem matmul_at (A : FVec Ideal S128x512 .f32) (B : FVec Ideal S512x128 .f32) (i j : Fin 128) :
    matmul (F := Ideal) D (some .fp32) A B (constant (F := Ideal) S128x128 .f32 0x00000000#32) (ix2 i j)
      = ∑ d : Fin 512, A (ix2 i d) * B (ix2 d j) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 i j) ((contrEquiv1 D 512 rfl rfl).symm k) = ix2 i k := funext fun a => Fin.ext (by
    match a with
    | ⟨0, _⟩ => exact lhs_0 _ _
    | ⟨1, _⟩ => exact (lhs_1 _ _).trans hk)
  have er : D.rhsIdx (ix2 i j) ((contrEquiv1 D 512 rfl rfl).symm k) = ix2 k j := funext fun a => Fin.ext (by
    match a with
    | ⟨0, _⟩ => exact (rhs_0 _ _).trans hk
    | ⟨1, _⟩ => exact rhs_1 _ _)
  rw [el, er]

/-- A loaded block as a `128 × 512` matrix. -/
def mat (x : Vec Ideal S1x128x512 .f32) : FVec Ideal S128x512 .f32 :=
  shapeCast S128x512 x shapeCasts_S1x128x512_S128x512

theorem mat_at (x : Vec Ideal S1x128x512 .f32) (n : Fin 128) (d : Fin 512) : mat x (ix2 n d) = rows x n d :=
  shapeCast_1ab_ab_apply x _ n d

/-- The product of one patch with the transpose of another, as the body spells it. -/
def gramOf (xa xb : Vec Ideal S1x128x512 .f32) : FVec Ideal S128x128 .f32 :=
  matmul (F := Ideal) D (some .fp32) (mat xa)
    (transpose S512x128 [1, 0] (mat xb) transposes_S128x512_p1_0_S512x128 : FVec Ideal S512x128 .f32)
    (constant (F := Ideal) S128x128 .f32 0x00000000#32)

/-- It is the Gram matrix of their rows. -/
theorem gramOf_at (xa xb : Vec Ideal S1x128x512 .f32) (i j : Fin 128) :
    gramOf xa xb (ix2 i j) = gram (rows xa) (rows xb) i j := by
  unfold gramOf
  rw [matmul_at]
  unfold gram
  refine Finset.sum_congr rfl fun d _ => ?_
  rw [transpose_ix2_apply, mat_at, mat_at]

/-- `2 − 2 ·` the Gram matrix, as the body spells it. -/
def distOf (xa xb : Vec Ideal S1x128x512 .f32) : FVec Ideal S128x128 .f32 :=
  subf (broadcast S128x128 (Scalar.ofBits (F := Ideal) .f32 0x40000000#32))
    (mulf (broadcast S128x128 (Scalar.ofBits (F := Ideal) .f32 0x40000000#32)) (gramOf xa xb))

theorem distOf_at (xa xb : Vec Ideal S1x128x512 .f32) (i j : Fin 128) :
    distOf xa xb (ix2 i j) = dist (rows xa) (rows xb) i j :=
  congrArg (fun g : EReal => Ideal.ofBits .f32 0x40000000#32 - Ideal.ofBits .f32 0x40000000#32 * g) (gramOf_at xa xb i j)

theorem pay5_eq (x1 : Vec Ideal S1x128x512 .f32) : k0_pay5 (F := Ideal) x1 = distOf x1 x1 := rfl
theorem pay6_eq (x0 x1 : Vec Ideal S1x128x512 .f32) : k0_pay6 (F := Ideal) x0 x1 = distOf x1 x0 := rfl

/-- A `2 − 2·gram` matrix cast to columns, `1` added, broadcast along the negatives: `1 + P i j` at `(i, j, k)`. -/
def colsOf (P : FVec Ideal S128x128 .f32) : FVec Ideal S128x128x128 .f32 :=
  broadcastTo S128x128x128
    (addf (broadcast S128x128x1 (Scalar.ofBits (F := Ideal) .f32 0x3F800000#32)) (shapeCast S128x128x1 P shapeCasts_S128x128_S128x128x1))
    broadcasts_S128x128x1_S128x128x128

/-- A `2 − 2·gram` matrix cast to rows and broadcast along the positives: `Q i k` at `(i, j, k)`. -/
def rowsOf (Q : FVec Ideal S128x128 .f32) : FVec Ideal S128x128x128 .f32 :=
  broadcastTo S128x128x128 (shapeCast S128x1x128 Q shapeCasts_S128x128_S128x1x128) broadcasts_S128x1x128_S128x128x128

theorem colsOf_at (P : FVec Ideal S128x128 .f32) (i j k : Fin 128) :
    colsOf P (ix3 i j k) = Ideal.ofBits .f32 0x3F800000#32 + P (ix2 i j) := by
  unfold colsOf
  rw [broadcastTo_ab1_abc_apply]
  exact congrArg (fun g : EReal => Ideal.ofBits .f32 0x3F800000#32 + g) (shapeCast_ab_ab1_apply P _ i j 0)

theorem rowsOf_at (Q : FVec Ideal S128x128 .f32) (i j k : Fin 128) : rowsOf Q (ix3 i j k) = Q (ix2 i k) := by
  unfold rowsOf
  rw [broadcastTo_a1c_abc_apply, shapeCast_ab_a1b_apply]

theorem pay7_eq (x0 : Vec Ideal S1x128x512 .f32) : k0_pay7 (F := Ideal) x0 = colsOf (distOf x0 x0) := rfl
theorem pay8_eq (x0 x1 : Vec Ideal S1x128x512 .f32) : k0_pay8 (F := Ideal) x0 x1 = rowsOf (distOf x0 x1) := rfl

/-! ## One direction of the loss, from the two broadcast operands -/

/-- The margins with the non-positive ones replaced by zero. -/
def posOf (A B : FVec Ideal S128x128x128 .f32) : FVec Ideal S128x128x128 .f32 :=
  select (cmpf .ole (subf A B) (broadcast S128x128x128 (Scalar.ofBits (F := Ideal) .f32 0x00000000#32)))
    (broadcast S128x128x128 (Scalar.ofBits (F := Ideal) .f32 0x00000000#32)) (subf A B)

/-- The indicator of a non-positive margin, as a number. -/
def indOf (A B : FVec Ideal S128x128x128 .f32) : FVec Ideal S128x128x128 .f32 :=
  sitofp (F := Ideal) .f32 (extui 32 (cmpf .ole (subf A B) (broadcast S128x128x128 (Scalar.ofBits (F := Ideal) .f32 0x00000000#32))) natLt_1_32)

/-- The quotient matrix. -/
def quoOf (A B : FVec Ideal S128x128x128 .f32) : FVec Ideal S128x128 .f32 :=
  divf (multiReduction (F := Ideal) .add [2] S128x128 (posOf A B) 0x00000000#32 reduces_S128x128x128_S128x128 (.inl rfl) rfl)
    (addf (subf (broadcast S128x128 (Scalar.ofBits (F := Ideal) .f32 0x43000000#32))
        (multiReduction (F := Ideal) .add [2] S128x128 (indOf A B) 0x00000000#32 reduces_S128x128x128_S128x128 (.inl rfl) rfl))
      (broadcast S128x128 (Scalar.ofBits (F := Ideal) .f32 0x3089705F#32)))

/-- The quotients summed to one number. -/
def halfOf (A B : FVec Ideal S128x128x128 .f32) : Ideal .f32 :=
  extractAt ![0, 0, 0]
    (shapeCast S1x1x1
      (multiReduction (F := Ideal) .add [1, 2] S1 (shapeCast S1x128x128 (quoOf A B) shapeCasts_S128x128_S1x128x128) 0x00000000#32
        reduces_S1x128x128_S1 (.inl rfl) rfl)
      shapeCasts_S1_S1x1x1)
    inpos_S1x1x1_p0_0_0

/-- The body's sum of the two directions is two such halves. -/
theorem pay9_eq (v26 v30 : FVec Ideal S128x128 .f32) (v35 v36 : FVec Ideal S128x128x128 .f32) :
    k0_pay9 (F := Ideal) v26 v30 v35 v36 = Scalar.addf (halfOf v35 v36) (halfOf (colsOf v26) (rowsOf v30)) := rfl

/-- The coordinate a sum over the last axis inserts is the last coordinate. -/
theorem lift_last (i j k : Fin 128) : reduces_S128x128x128_S128x128.lift (ix2 i j) k = ix3 i j k :=
  funext fun a => Fin.ext (by match a with | ⟨0, _⟩ => rfl | ⟨1, _⟩ => rfl | ⟨2, _⟩ => rfl)

/-- A sum over the last axis, at `(i, j)`. -/
theorem sum_last (src : FVec Ideal S128x128x128 .f32) (i j : Fin 128) :
    multiReduction (F := Ideal) .add [2] S128x128 src 0x00000000#32 reduces_S128x128x128_S128x128 (.inl rfl) rfl (ix2 i j)
      = ∑ k : Fin 128, src (ix3 i j k) :=
  (Ideal.multiReduction_add_single src 0x00000000#32 reduces_S128x128x128_S128x128 (.inl rfl) rfl (ix2 i j)).trans
    (Finset.sum_congr rfl fun k _ => congrArg src (lift_last i j k))

/-- The quotient matrix at `(i, j)`, when the first operand is `1 + P i j` and the second `Q i k`. -/
theorem quoOf_at (A B : FVec Ideal S128x128x128 .f32) (P Q : Fin 128 → Fin 128 → EReal)
    (hA : ∀ i j k, A (ix3 i j k) = Ideal.ofBits .f32 0x3F800000#32 + P i j) (hB : ∀ i j k, B (ix3 i j k) = Q i k)
    (i j : Fin 128) : quoOf A B (ix2 i j) = quo P Q i j := by
  have hm : ∀ k, A (ix3 i j k) - B (ix3 i j k) = hinge P Q i j k := fun k => by rw [hA, hB]; rfl
  have hpos : ∀ k, posOf A B (ix3 i j k)
      = Scalar.select (below (hinge P Q i j k)) (Ideal.ofBits .f32 0x00000000#32) (hinge P Q i j k) := fun k => by
    show Scalar.select (Ideal.cmp .ole (A (ix3 i j k) - B (ix3 i j k)) (Ideal.ofBits .f32 0x00000000#32))
      (Ideal.ofBits .f32 0x00000000#32) (A (ix3 i j k) - B (ix3 i j k)) = _
    rw [hm]; rfl
  have hind : ∀ k, indOf A B (ix3 i j k)
      = (FloatOps.sitofp (F := Ideal) .f32 ((below (hinge P Q i j k)).setWidth 32) : EReal) := fun k => by
    show (FloatOps.sitofp (F := Ideal) .f32
      ((Ideal.cmp .ole (A (ix3 i j k) - B (ix3 i j k)) (Ideal.ofBits .f32 0x00000000#32)).setWidth 32) : EReal) = _
    rw [hm]; rfl
  show Ideal.div
      (multiReduction (F := Ideal) .add [2] S128x128 (posOf A B) 0x00000000#32 reduces_S128x128x128_S128x128 (.inl rfl) rfl (ix2 i j))
      (Ideal.ofBits .f32 0x43000000#32
          - multiReduction (F := Ideal) .add [2] S128x128 (indOf A B) 0x00000000#32 reduces_S128x128x128_S128x128 (.inl rfl) rfl (ix2 i j)
        + Ideal.ofBits .f32 0x3089705F#32) = _
  rw [sum_last, sum_last]
  unfold quo
  rw [Finset.sum_congr rfl fun k _ => hpos k, Finset.sum_congr rfl fun k _ => hind k]

/-- One half is the double sum of the quotients. -/
theorem halfOf_eq (A B : FVec Ideal S128x128x128 .f32) (P Q : Fin 128 → Fin 128 → EReal)
    (hA : ∀ i j k, A (ix3 i j k) = Ideal.ofBits .f32 0x3F800000#32 + P i j) (hB : ∀ i j k, B (ix3 i j k) = Q i k) :
    halfOf A B = ∑ i : Fin 128, ∑ j : Fin 128, quo P Q i j := by
  unfold halfOf
  rw [extractAt_shapeCast_one]
  refine (Ideal.multiReduction_add_total _ 0x00000000#32 reduces_S1x128x128_S1 (fun b => by
    match b with | ⟨0, _⟩ => rfl) (.inl rfl) rfl (ix1 (0 : Fin 1))).trans ?_
  rw [Cert.TrailingSum.sum_idx3, Fin.sum_univ_one]
  refine Finset.sum_congr rfl fun i _ => Finset.sum_congr rfl fun j _ => ?_
  rw [shapeCast_ab_1ab_apply]
  exact quoOf_at A B P Q hA hB i j

/-- What the body adds at one point: both directions of the loss of the two loaded patches. -/
theorem total_eq (x0 x1 : Vec Ideal S1x128x512 .f32) :
    k0_pay9 (F := Ideal) (k0_pay5 x1) (k0_pay6 x0 x1) (k0_pay7 x0) (k0_pay8 x0 x1) = total (rows x0) (rows x1) := by
  have h1 : halfOf (colsOf (distOf x0 x0)) (rowsOf (distOf x0 x1)) = part (rows x0) (rows x1) :=
    halfOf_eq _ _ (dist (rows x0) (rows x0)) (dist (rows x0) (rows x1))
      (fun i j k => by rw [colsOf_at, distOf_at]) (fun i j k => by rw [rowsOf_at, distOf_at])
  have h2 : halfOf (colsOf (distOf x1 x1)) (rowsOf (distOf x1 x0)) = part (rows x1) (rows x0) :=
    halfOf_eq _ _ (dist (rows x1) (rows x1)) (dist (rows x1) (rows x0))
      (fun i j k => by rw [colsOf_at, distOf_at]) (fun i j k => by rw [rowsOf_at, distOf_at])
  rw [pay9_eq, pay5_eq, pay6_eq, pay7_eq, pay8_eq, Ideal.scalar_addf_def, h1, h2]
  rfl

end Cert.KernelIdeal.PayValue

end
-- ==== Proof.Accum.lean ====
/-
  The kernel's run, read: what the accumulator and the output block hold after each grid point, the output array after
  the run, and the program's result after the two host operations that follow the region.

  Point `t` loads patch `t` of the stack of anchors and patch `t` of the stack of companions (each input block is one
  whole `128 × 512` member of its `32 × 128 × 512` array) and adds `total` of the two to the accumulator, which the first
  point starts from zero. So after point `n` the accumulator, and the output block copied from it, hold the sum of
  `total` over the points up to `n` — by induction on the point. The one-element output array is written back once,
  after the last point, with the sum over all 32 points; the host then reads that element and divides it by 524288.
-/
import proofs.«133893_j4896262717964_1_alg».proof.Proof.Gen.KernelIdeal.Frame
import proofs.«133893_j4896262717964_1_alg».proof.Proof.Pieces
import proofs.«133893_j4896262717964_1_alg».proof.Proof.KernelPay
import proofs.«133893_j4896262717964_1_alg».proof.Proof.Spec
import Idealize.ShloMosaic.Lib.Pipeline.Value
import Idealize.ShloMosaic.Lib.StableHlo.Run
import Idealize.ShloMosaic.Lib.Tactic

open scoped BigOperators

noncomputable section

namespace Cert.KernelIdeal.AccValue

open Cert.KernelIdeal Cert.KernelIdeal.Gen Idealize.ShloMosaic Idealize.ShloMosaic.TcCoe Idealize.SL.Sem
open Idealize.ShloMosaic.Pipeline (Dat)
open Idealize.ShloMosaic.ValueIdx Cert.Triplet Cert.KernelIdeal.PieceValue Cert.KernelIdeal.PayValue

variable (m : (ℓ : Loc nD τ sig) → Buf (Elt Ideal) ℓ) (ρ : Dev nD → PrngReg)

/-! ## The blocks the points load -/

/-- Every point's input block is the member of the stack at the point's own number: block index `(t, 0, 0)`. -/
theorem index_facts : ∀ t : Fin cfg0.N,
    (win0_0.index t 0 = t.val ∧ win0_0.index t 1 = 0 ∧ win0_0.index t 2 = 0)
      ∧ (win0_1.index t 0 = t.val ∧ win0_1.index t 1 = 0 ∧ win0_1.index t 2 = 0) :=
  (by decide +kernel : ∀ t : Fin grid0.N,
    (win0_0.index t 0 = t.val ∧ win0_0.index t 1 = 0 ∧ win0_0.index t 2 = 0)
      ∧ (win0_1.index t 0 = t.val ∧ win0_1.index t 1 = 0 ∧ win0_1.index t 2 = 0))

theorem lt32 (t : Fin cfg0.N) : t.val < 32 := lt_of_lt_of_eq t.isLt (show cfg0.N = 32 from N_0)

/-- The anchors' block at point `t` is patch `t` of the anchors' array as the region finds it. -/
theorem rows_iblk0 (c : Dev nD) (t : Fin cfg0.N) :
    rows (iblk m c 0 t) = patch (V m c main_v5) ⟨t.val, lt32 t⟩ := by
  funext n d
  unfold rows iblk patch
  rw [View.read_apply]
  show V m c main_v5 _ = V m c main_v5 _
  refine congrArg (V m c main_v5) (funext fun a => Fin.ext ?_)
  have hi := (index_facts t).1
  match a with
  | ⟨0, _⟩ => show win0_0.index t 0 * 1 + 1 * 0 = t.val; rw [hi.1]; omega
  | ⟨1, _⟩ => show win0_0.index t 1 * 128 + 1 * n.val = n.val; rw [hi.2.1]; omega
  | ⟨2, _⟩ => show win0_0.index t 2 * 512 + 1 * d.val = d.val; rw [hi.2.2]; omega

/-- The companions' block at point `t` is patch `t` of the companions' array. -/
theorem rows_iblk1 (c : Dev nD) (t : Fin cfg0.N) :
    rows (iblk m c 1 t) = patch (V m c main_v7) ⟨t.val, lt32 t⟩ := by
  funext n d
  unfold rows iblk patch
  rw [View.read_apply]
  show V m c main_v7 _ = V m c main_v7 _
  refine congrArg (V m c main_v7) (funext fun a => Fin.ext ?_)
  have hi := (index_facts t).2
  match a with
  | ⟨0, _⟩ => show win0_1.index t 0 * 1 + 1 * 0 = t.val; rw [hi.1]; omega
  | ⟨1, _⟩ => show win0_1.index t 1 * 128 + 1 * n.val = n.val; rw [hi.2.1]; omega
  | ⟨2, _⟩ => show win0_1.index t 2 * 512 + 1 * d.val = d.val; rw [hi.2.2]; omega

/-! ## The running sum -/

/-- The loss of pair `n` of the two stacks (zero past the last pair, so that the sum below is over plain naturals). -/
def pairLoss (c : Dev nD) (n : ℕ) : EReal :=
  if h : n < 32 then total (patch (V m c main_v5) ⟨n, h⟩) (patch (V m c main_v7) ⟨n, h⟩) else 0

/-- The sum of the pairs' losses up to pair `n`. -/
def upTo (c : Dev nD) (n : ℕ) : EReal := ∑ t ∈ Finset.range (n + 1), pairLoss m c t

/-- What point `t` adds is the loss of pair `t`. -/
theorem added_eq (c : Dev nD) (t : Fin cfg0.N) :
    added (F := Ideal) (iblk m c 0 t) (iblk m c 1 t) = pairLoss m c t.val := by
  unfold pairLoss
  rw [dif_pos (lt32 t)]
  exact (total_eq (iblk m c 0 t) (iblk m c 1 t)).trans (by rw [rows_iblk0, rows_iblk1])

/-- The accumulator's update, at the ideal values: the old contents plus the added number, at the one index. -/
theorem update_eq (v : Ideal .f32) (xs : Vec Ideal S1x1 .f32) :
    k0_pay1 (F := Ideal) v xs = fun y => (xs y : EReal) + v :=
  (shapeCast_self _ shapeCasts_S1x1_S1x1).trans rfl

/-- The block the first point stores first: zero. -/
theorem reset_eq : k0_pay2 (F := Ideal) = fun _ => (0 : EReal) :=
  (shapeCast_self _ shapeCasts_S1x1_S1x1).trans (funext fun _ => Ideal.ofBits_zero_f32)

/-- After point `n` the output block and the accumulator both hold the sum of the pairs' losses up to `n`. -/
theorem outsAt_eq (c : Dev nD) : ∀ (n : ℕ) (h : n < cfg0.N),
    outsAt0 m c n h = ((fun _ => upTo m c n), (fun _ => upTo m c n))
  | 0, h => by
    have e0 : k0_pay1 (F := Ideal) (added (iblk m c 0 ⟨0, h⟩) (iblk m c 1 ⟨0, h⟩)) (k0_pay2 (F := Ideal)) = fun _ => upTo m c 0 := by
      rw [update_eq, reset_eq, added_eq m c ⟨0, h⟩]
      funext y
      unfold upTo
      rw [Finset.sum_range_one, zero_add]
    rw [outsAt0_A m c ⟨0, h⟩ rfl]
    refine Prod.ext ?_ ?_
    · exact (out_first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) scM0_0 (Memref.isWhole_whole _) ((hcond0_0 ⟨0, h⟩).mpr rfl)
        (iblk m c 0 ⟨0, h⟩) (iblk m c 1 ⟨0, h⟩)).trans e0
    · exact (scratch_first (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) scM0_0 (Memref.isWhole_whole _) ((hcond0_0 ⟨0, h⟩).mpr rfl)
        (iblk m c 0 ⟨0, h⟩) (iblk m c 1 ⟨0, h⟩)).trans e0
  | n + 1, h => by
    have hN : cfg0.N = 32 := N_0
    have hB : ¬(⟨n + 1, h⟩ : Fin cfg0.N).val % 32 = 0 := by dsimp only; omega
    have hn : n < cfg0.N := Nat.lt_of_succ_lt h
    have e1 : k0_pay1 (F := Ideal) (added (iblk m c 0 ⟨n + 1, h⟩) (iblk m c 1 ⟨n + 1, h⟩)) (outsAt0 m c n hn).2
        = fun _ => upTo m c (n + 1) := by
      rw [outsAt_eq c n hn, update_eq, added_eq m c ⟨n + 1, h⟩]
      funext y
      unfold upTo
      rw [Finset.sum_range_succ _ (n + 1)]
    rw [outsAt0_B m c ⟨n + 1, h⟩ hB]
    refine Prod.ext ?_ ?_
    · exact (out_later (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _)
        (fun h' => hB ((hcond0_0 ⟨n + 1, h⟩).mp h')) (iblk m c 0 ⟨n + 1, h⟩) (iblk m c 1 ⟨n + 1, h⟩)
        (outsAt0 m c n hn).2).trans e1
    · exact (scratch_later (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) scM0_0 (Memref.isWhole_whole _)
        (fun h' => hB ((hcond0_0 ⟨n + 1, h⟩).mp h')) (iblk m c 0 ⟨n + 1, h⟩) (iblk m c 1 ⟨n + 1, h⟩)
        (outsAt0 m c n hn).2).trans e1

/-! ## The output array after the run -/

/-- The last grid point. -/
abbrev last : Fin cfg0.N := ⟨31, by rw [show cfg0.N = 32 from N_0]; decide⟩

/-- The one-element output array after the run: the sum over all 32 pairs. -/
abbrev result (c : Dev nD) : Buf (Elt Ideal) ((c : Thread nD τ).loc main_v8) := fun _ => upTo m c 31

/-- The one write-back, after the last point, writes it: the last point leaves the constant `upTo 31` in the output
    block, and any block read off a constant array is that constant. -/
theorem flushed_eq (c : Dev nD) (t : Fin cfg0.N) (hf : (cfg0.win 2).flush t = true) :
    (dats m 0 c).flushed 2 t = ((cfg0.win 2).blk t).view.read (Elt Ideal) (result m c) := by
  have h31 : t.val = 31 := by have := (flush0_2 t).mp hf; have := lt32 t; omega
  obtain rfl : t = last := Fin.ext h31
  funext y
  rw [View.read_apply]
  show (dats m 0 c).after 2 last _ = _
  rw [after0_2, outsAt_eq]
  exact (cast_eq _ _).symm

/-- The one-element array has one index, and it lies in the block the last point writes back. -/
theorem final_out (c : Dev nD) : (dats m 0 c).arrAt 2 cfg0.N = result m c :=
  (dats m 0 c).arrAt_eq_of_cover 2 (result m c) (flushed_eq m c) fun i =>
    ⟨last, (flush0_2 last).mpr rfl, by
      have hi : i = (ix2 (0 : Fin 1) (0 : Fin 1) : (⟨2, ![1, 1]⟩ : Shape).Idx) := funext fun a => Fin.ext (by
        match a with
        | ⟨0, _⟩ => show (i 0).val = 0; have h : (i 0).val < 1 := (i 0).isLt; omega
        | ⟨1, _⟩ => show (i 1).val = 0; have h : (i 1).val < 1 := (i 1).isLt; omega)
      rw [hi]
      show (ix2 (0 : Fin 1) (0 : Fin 1) : (⟨2, ![1, 1]⟩ : Shape).Idx) ∈ ((View.whole main_v8).slice (win0_2.rect last)).set
      decide +kernel⟩

/-! ## The host operations after the region, and the run -/

/-- The program's result: the sum over all pairs, divided by 524288. -/
abbrev answer (c : Dev nD) : Buf (Elt Ideal) ((c : Thread nD τ).loc main_v10) :=
  fun _ => Ideal.div (upTo m c 31) (Ideal.ofBits .f32 0x49000000#32)

/-- After the region the host reads the output array's element and divides it. -/
theorem tail_eq (c : Dev nD) :
    Pipeline.afterTail₀ cfgs (dats m) 0 (V0 m) [hostOps1] c main_v10 = answer m c := by
  unfold Pipeline.afterTail₀
  show StableHlo.after hostOps1 _ (Proc.devRef .tc main_v10) = _
  after_results
  rw [show Pipeline.withArrays (cfgs 0).spec c (V0 m c) (fun w => (dats m 0 c).arrAt w (cfgs 0).N) (Proc.devRef .tc main_v8)
      = result m c from (Pipeline.withArrays_arr spec0 launch0.win.arr_inj c _ _ 2).trans (final_out m c)]
  rfl

/-- The kernel's run at the ideal values: every weakly fair execution ends with the result at `answer` and the argument
    unchanged. -/
theorem run : θ_run defs (onTc (τ := τ) (main (F := Ideal))) ⟨m, fun _ => 0, ρ⟩ fun r => ∀ c : Dev nD,
      r.2.mem ((c.tc : Thread nD τ).loc main_v10) = answer m c
      ∧ r.2.mem ((c.tc : Thread nD τ).loc main_arg0) = m ((c.tc : Thread nD τ).loc main_arg0) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c)⟩)
    (run_main m ρ)

end Cert.KernelIdeal.AccValue

end
-- ==== Proof.LibIndicatorSum.lean ====
/-
  The count of a 0/1 indicator, two ways. An integer sum of one-bit words widened to 32 bits, read as a number, is the
  sum of the words each read as a number — as long as there are fewer than 2³¹ of them, so that the integer sum does not
  wrap. One program counts in integers and converts once; the other converts every word and sums the numbers.
  Also: a finite sum of reals, taken in the extended reals, is the real sum.
-/
import Idealize.ShloMosaic.PureOps.Ideal.Laws
import Idealize.ShloMosaic.Lib.IndicatorCount
import Idealize.ShloMosaic.Lib.KernelVsHost

open scoped BigOperators

namespace Cert.IndicatorSum

open Idealize.ShloMosaic

/-- A finite sum of real numbers, computed in the extended reals, is the real sum. -/
theorem coe_sum {ι : Type} (S : Finset ι) (f : ι → ℝ) :
    ∑ k ∈ S, ((f k : ℝ) : EReal) = ((∑ k ∈ S, f k : ℝ) : EReal) := by
  classical
  induction S using Finset.induction_on with
  | empty => simp
  | insert a S ha ih => rw [Finset.sum_insert ha, Finset.sum_insert ha, ih, EReal.coe_add]

/-- A one-bit word is the number 1 when it is the word 1, else 0. -/
theorem bit_toNat : ∀ b : BitVec 1, b.toNat = if b = 1#1 then 1 else 0 := by decide

/-- A one-bit word widened to 32 bits and read as a signed number is 1 or 0. -/
theorem sitofp_bit (b : BitVec 1) :
    (FloatOps.sitofp (F := Ideal) .f32 (b.setWidth 32) : EReal) = (((if b = 1#1 then 1 else 0 : ℕ) : ℝ) : EReal) := by
  show ((((b.setWidth 32).toInt : ℤ) : ℝ) : EReal) = _
  rw [toInt_setWidth_bit, bit_toNat]
  norm_cast

/-- A natural number below 2³¹, as a 32-bit word read signed, is itself. -/
theorem toInt_ofNat_small (n : ℕ) (hn : n < 2 ^ 31) : (BitVec.ofNat 32 n).toInt = (n : ℤ) := by
  rw [BitVec.toInt_eq_toNat_cond, BitVec.toNat_ofNat]
  have e : n % 2 ^ 32 = n := Nat.mod_eq_of_lt (by omega)
  rw [e]
  split
  · rfl
  · omega

/-- The integer count converted once is the sum of the converted words. -/
theorem sitofp_fold_addi {ι : Type} (S : Finset ι) (p : ι → BitVec 1) (hS : S.card < 2 ^ 31) :
    (FloatOps.sitofp (F := Ideal) .f32 (S.fold IntOp.addi (0#32) (fun k => (p k).setWidth 32)) : EReal)
      = ∑ k ∈ S, (FloatOps.sitofp (F := Ideal) .f32 ((p k).setWidth 32) : EReal) := by
  classical
  rw [IndicatorCount.fold_addi_setWidth_eq_card]
  have hn : (S.filter fun k => p k = 1#1).card < 2 ^ 31 := lt_of_le_of_lt (Finset.card_filter_le _ _) hS
  have e1 : (FloatOps.sitofp (F := Ideal) .f32 (BitVec.ofNat 32 (S.filter fun k => p k = 1#1).card) : EReal)
      = (((S.filter fun k => p k = 1#1).card : ℝ) : EReal) := by
    show ((((BitVec.ofNat 32 _).toInt : ℤ) : ℝ) : EReal) = _
    rw [toInt_ofNat_small _ hn]
    norm_cast
  rw [e1, Finset.sum_congr rfl fun k _ => sitofp_bit (p k), coe_sum, Finset.card_filter]
  norm_cast

/-- The host's count along ONE axis — an integer `reduce` by addition, from zero, of one-bit words widened to 32 bits —
    converted to a number once, is the sum over that axis's coordinates of the words each converted: the axis is shorter
    than 2³¹, so the integer sum does not wrap. -/
theorem sitofp_hostReduce_addi {s t : Shape} {a : Fin s.rank} (h' : s.ReducesTo [a] t) (h : s.Reduces [a] t)
    {u : Shape} (hu : 0 < u.numel) (init : u.Idx → BitVec 32) (hinit : init (Shape.Idx.first hu) = 0#32)
    (p : s.Idx → BitVec 1) (hsz : s.size a < 2 ^ 31) (j : t.Idx) :
    (FloatOps.sitofp (F := Ideal) .f32 (Host.reduce IntOp.addi (fun i => (p i).setWidth 32) init h' hu j) : EReal)
      = ∑ k : Fin (s.size a), (FloatOps.sitofp (F := Ideal) .f32 ((p (h.lift j k)).setWidth 32) : EReal) := by
  rw [Host.reduce_eq_fold, hinit, Shape.ReducesTo.drop_eq_drop h' h]
  have hcard : (Finset.univ.filter fun i => h.drop i = j).card = s.size a := by
    rw [Finset.card_eq_sum_ones, h.sum_filter_drop_single (fun _ => 1) j]
    simp
  rw [sitofp_fold_addi _ p (by rw [hcard]; exact hsz)]
  exact h.sum_filter_drop_single (fun i => (FloatOps.sitofp (F := Ideal) .f32 ((p i).setWidth 32) : EReal)) j

end Cert.IndicatorSum
-- ==== Proof.RefRead.lean ====
/-
  The reference, read at an index: its result is the two one-direction losses, each summed over every pair of patches,
  anchor and positive and divided by 524288, added.

  The reference works on the whole stacks at once. Per direction it forms two batched Gram arrays `[32, 128, 128]`,
  turns each into `2 − 2·gram`, broadcasts them to the rank-4 array of margins `(1 + P b i j) − Q b i k`, sums the
  positive margins over `k`, counts the non-positive ones — in integers, converting the count once —, divides, and
  sums the quotients over all of `b, i, j`. Read at `(b, i, j)` every stage depends on patch `b` of each stack only,
  and the quotient there is `Cert.Triplet.quo` of patch `b`'s distance matrices. The second direction is the first with
  the two stacks exchanged.
-/
import proofs.«133893_j4896262717964_1_alg».proof.Proof.Gen.ReferenceIdeal.Read
import proofs.«133893_j4896262717964_1_alg».proof.Proof.Spec
import proofs.«133893_j4896262717964_1_alg».proof.Proof.LibTrailingSum
import proofs.«133893_j4896262717964_1_alg».proof.Proof.LibIndicatorSum
import Idealize.ShloMosaic.PureOps.Ideal.Laws
import Idealize.ShloMosaic.Lib.ValueIdx

open scoped BigOperators

noncomputable section

namespace Cert.ReferenceIdeal.RefValue

open Cert.ReferenceIdeal Cert.ReferenceIdeal.Gen Cert.ReferenceIdeal.Read Idealize.ShloMosaic
open Idealize.ShloMosaic.ValueIdx Cert.Triplet

variable (x0 : (⟨S8192x512, .f32⟩ : BufTy).Contents (Elt Ideal))

/-- Summing the rank-4 arrays over their last axis. -/
theorem lastAxis : S32x128x128x128.Reduces [3] S32x128x128 := by decide

/-! ## Direction 1: anchors against companions -/

/-- The batched product of a stack with itself, at pair `b`: the Gram matrix of patch `b`'s rows. -/
theorem gramA1 (b : Fin 32) (i j : Fin 128) :
    val_main_v8 (F := Ideal) x0 (ix3 b i j) = gram (patch (val_main_v5 (F := Ideal) x0) b) (patch (val_main_v5 (F := Ideal) x0) b) i j := by
  rw [val_main_v8_apply]
  unfold gram patch
  refine Finset.sum_congr rfl fun d _ => ?_
  have el : lidx_main_v8 (ix3 b i j) d = ix3 b i d := funext fun a => Fin.ext (by match a with | ⟨0, _⟩ => rfl | ⟨1, _⟩ => rfl | ⟨2, _⟩ => rfl)
  have er : ridx_main_v8 (ix3 b i j) d = ix3 b j d := funext fun a => Fin.ext (by match a with | ⟨0, _⟩ => rfl | ⟨1, _⟩ => rfl | ⟨2, _⟩ => rfl)
  rw [el, er]

/-- The batched product of the two stacks, at pair `b`. -/
theorem gramB1 (b : Fin 32) (i j : Fin 128) :
    val_main_v13 (F := Ideal) x0 (ix3 b i j) = gram (patch (val_main_v5 (F := Ideal) x0) b) (patch (val_main_v7 (F := Ideal) x0) b) i j := by
  rw [val_main_v13_apply]
  unfold gram patch
  refine Finset.sum_congr rfl fun d _ => ?_
  have el : lidx_main_v13 (ix3 b i j) d = ix3 b i d := funext fun a => Fin.ext (by match a with | ⟨0, _⟩ => rfl | ⟨1, _⟩ => rfl | ⟨2, _⟩ => rfl)
  have er : ridx_main_v13 (ix3 b i j) d = ix3 b j d := funext fun a => Fin.ext (by match a with | ⟨0, _⟩ => rfl | ⟨1, _⟩ => rfl | ⟨2, _⟩ => rfl)
  rw [el, er]

theorem distA1 (b : Fin 32) (i j : Fin 128) : val_main_v12 (F := Ideal) x0 (ix3 b i j) = dist (patch (val_main_v5 (F := Ideal) x0) b) (patch (val_main_v5 (F := Ideal) x0) b) i j := by
  rw [val_main_v12_apply, val_main_v11_apply, val_main_cst_0_apply, val_main_v10_apply, val_main_v9_apply,
    val_main_cst_apply, gramA1]
  rfl

theorem distB1 (b : Fin 32) (i j : Fin 128) : val_main_v17 (F := Ideal) x0 (ix3 b i j) = dist (patch (val_main_v5 (F := Ideal) x0) b) (patch (val_main_v7 (F := Ideal) x0) b) i j := by
  rw [val_main_v17_apply, val_main_v16_apply, val_main_cst_2_apply, val_main_v15_apply, val_main_v14_apply,
    val_main_cst_1_apply, gramB1]
  rfl

/-- The rank-4 array of margins at `(b, i, j, k)`: the positive distance is broadcast along `k`, the negative along `j`. -/
theorem margin1 (b : Fin 32) (i j k : Fin 128) : val_main_v24 (F := Ideal) x0 (ix4 b i j k) = (hinge (dist (patch (val_main_v5 (F := Ideal) x0) b) (patch (val_main_v5 (F := Ideal) x0) b)) (dist (patch (val_main_v5 (F := Ideal) x0) b) (patch (val_main_v7 (F := Ideal) x0) b)) i j k) := by
  have e1 : idx_main_v18 (idx_main_v22 (ix4 b i j k)) = ix3 b i j := funext fun a => Fin.ext (by match a with | ⟨0, _⟩ => rfl | ⟨1, _⟩ => rfl | ⟨2, _⟩ => rfl)
  have e2 : idx_main_v21 (idx_main_v23 (ix4 b i j k)) = ix3 b i k := funext fun a => Fin.ext (by match a with | ⟨0, _⟩ => rfl | ⟨1, _⟩ => rfl | ⟨2, _⟩ => rfl)
  rw [val_main_v24_apply, val_main_v22_apply, val_main_v20_apply, val_main_v19_apply, val_main_cst_3_apply,
    val_main_v18_apply, e1, distA1, val_main_v23_apply, val_main_v21_apply, e2, distB1]
  rfl

theorem mask1 (b : Fin 32) (i j k : Fin 128) : val_main_v26 (F := Ideal) x0 (ix4 b i j k) = below (hinge (dist (patch (val_main_v5 (F := Ideal) x0) b) (patch (val_main_v5 (F := Ideal) x0) b)) (dist (patch (val_main_v5 (F := Ideal) x0) b) (patch (val_main_v7 (F := Ideal) x0) b)) i j k) := by
  rw [val_main_v26_apply, val_main_v25_apply, val_main_cst_4_apply, margin1]
  rfl

theorem pos1 (b : Fin 32) (i j k : Fin 128) :
    val_main_v27 (F := Ideal) x0 (ix4 b i j k) = Scalar.select (below (hinge (dist (patch (val_main_v5 (F := Ideal) x0) b) (patch (val_main_v5 (F := Ideal) x0) b)) (dist (patch (val_main_v5 (F := Ideal) x0) b) (patch (val_main_v7 (F := Ideal) x0) b)) i j k)) (Ideal.ofBits .f32 0x00000000#32) (hinge (dist (patch (val_main_v5 (F := Ideal) x0) b) (patch (val_main_v5 (F := Ideal) x0) b)) (dist (patch (val_main_v5 (F := Ideal) x0) b) (patch (val_main_v7 (F := Ideal) x0) b)) i j k) := by
  rw [val_main_v27_apply, mask1, val_main_call1_v1_apply, val_main_call1_v0_apply, val_main_cst_5_apply, margin1]
  rfl

/-- The sum of the positive margins over the negatives (the zero initial value adds nothing). -/
theorem num1 (b : Fin 32) (i j : Fin 128) :
    val_main_v28 (F := Ideal) x0 (ix3 b i j)
      = ∑ k : Fin 128, Scalar.select (below (hinge (dist (patch (val_main_v5 (F := Ideal) x0) b) (patch (val_main_v5 (F := Ideal) x0) b)) (dist (patch (val_main_v5 (F := Ideal) x0) b) (patch (val_main_v7 (F := Ideal) x0) b)) i j k)) (Ideal.ofBits .f32 0x00000000#32) (hinge (dist (patch (val_main_v5 (F := Ideal) x0) b) (patch (val_main_v5 (F := Ideal) x0) b)) (dist (patch (val_main_v5 (F := Ideal) x0) b) (patch (val_main_v7 (F := Ideal) x0) b)) i j k) := by
  rw [val_main_v28_apply, val_main_cst_6_apply]
  have hz : ∀ y : EReal, FloatOps.ofBits (F := Ideal) .f32 0x00000000#32 + y = y := fun y => by
    rw [Ideal.ofBits_def, Ideal.ofBits_zero_f32, zero_add]
  rw [hz]
  refine Finset.sum_congr rfl fun k _ => ?_
  have e : idx_main_v28 (ix3 b i j) k = ix4 b i j k := funext fun a => Fin.ext (by match a with | ⟨0, _⟩ => rfl | ⟨1, _⟩ => rfl | ⟨2, _⟩ => rfl | ⟨3, _⟩ => rfl)
  rw [e, pos1]

/-- The count of the non-positive margins: counted in integers by the host and converted once. -/
theorem cnt1 (b : Fin 32) (i j : Fin 128) :
    val_main_v31 (F := Ideal) x0 (ix3 b i j)
      = ∑ k : Fin 128, (FloatOps.sitofp (F := Ideal) .f32 ((below (hinge (dist (patch (val_main_v5 (F := Ideal) x0) b) (patch (val_main_v5 (F := Ideal) x0) b)) (dist (patch (val_main_v5 (F := Ideal) x0) b) (patch (val_main_v7 (F := Ideal) x0) b)) i j k)).setWidth 32) : EReal) := by
  rw [val_main_v31_apply]
  unfold val_main_v30
  have hv : val_main_v29 (F := Ideal) x0 = fun i => (val_main_v26 (F := Ideal) x0 i).setWidth 32 := rfl
  rw [hv]
  refine (Cert.IndicatorSum.sitofp_hostReduce_addi reducesTo_S32x128x128x128_S32x128x128_d3 lastAxis h_S_
    (val_main_c (F := Ideal)) rfl (val_main_v26 (F := Ideal) x0) (by decide) (ix3 b i j)).trans ?_
  refine Finset.sum_congr rfl fun (k : Fin 128) _ => ?_
  have e : lastAxis.lift (ix3 b i j) k = ix4 b i j k := funext fun a => Fin.ext (by match a with | ⟨0, _⟩ => rfl | ⟨1, _⟩ => rfl | ⟨2, _⟩ => rfl | ⟨3, _⟩ => rfl)
  exact congrArg (fun w : BitVec 1 => (FloatOps.sitofp (F := Ideal) .f32 (w.setWidth 32) : EReal))
    ((congrArg (val_main_v26 (F := Ideal) x0) e).trans (mask1 x0 b i j k))

/-- The quotient array at `(b, i, j)`. -/
theorem quo1 (b : Fin 32) (i j : Fin 128) : val_main_v36 (F := Ideal) x0 (ix3 b i j) = quo (dist (patch (val_main_v5 (F := Ideal) x0) b) (patch (val_main_v5 (F := Ideal) x0) b)) (dist (patch (val_main_v5 (F := Ideal) x0) b) (patch (val_main_v7 (F := Ideal) x0) b)) i j := by
  rw [val_main_v36_apply, val_main_v35_apply, val_main_v34_apply, val_main_cst_8_apply, val_main_v33_apply,
    val_main_v32_apply, val_main_cst_7_apply, num1, cnt1]
  rfl

/-- The sum over every pair, anchor and positive: the pairs' one-direction losses summed. -/
theorem sum1 (i : S_.Idx) :
    val_main_v37 (F := Ideal) x0 i = Ideal.ofBits .f32 0x00000000#32 + ∑ b : Fin 32, part (patch (val_main_v5 (F := Ideal) x0) b) (patch (val_main_v7 (F := Ideal) x0) b) := by
  rw [val_main_v37_apply, val_main_cst_9_apply, Cert.TrailingSum.sum_idx3]
  refine congrArg (fun g : EReal => Ideal.ofBits .f32 0x00000000#32 + g) (Finset.sum_congr rfl fun b _ => ?_)
  unfold part
  exact Finset.sum_congr rfl fun i _ => Finset.sum_congr rfl fun j _ => quo1 x0 b i j

/-! ## Direction 2: companions against anchors -/

/-- The batched product of a stack with itself, at pair `b`: the Gram matrix of patch `b`'s rows. -/
theorem gramA2 (b : Fin 32) (i j : Fin 128) :
    val_main_v39 (F := Ideal) x0 (ix3 b i j) = gram (patch (val_main_v7 (F := Ideal) x0) b) (patch (val_main_v7 (F := Ideal) x0) b) i j := by
  rw [val_main_v39_apply]
  unfold gram patch
  refine Finset.sum_congr rfl fun d _ => ?_
  have el : lidx_main_v39 (ix3 b i j) d = ix3 b i d := funext fun a => Fin.ext (by match a with | ⟨0, _⟩ => rfl | ⟨1, _⟩ => rfl | ⟨2, _⟩ => rfl)
  have er : ridx_main_v39 (ix3 b i j) d = ix3 b j d := funext fun a => Fin.ext (by match a with | ⟨0, _⟩ => rfl | ⟨1, _⟩ => rfl | ⟨2, _⟩ => rfl)
  rw [el, er]

/-- The batched product of the two stacks, at pair `b`. -/
theorem gramB2 (b : Fin 32) (i j : Fin 128) :
    val_main_v44 (F := Ideal) x0 (ix3 b i j) = gram (patch (val_main_v7 (F := Ideal) x0) b) (patch (val_main_v5 (F := Ideal) x0) b) i j := by
  rw [val_main_v44_apply]
  unfold gram patch
  refine Finset.sum_congr rfl fun d _ => ?_
  have el : lidx_main_v44 (ix3 b i j) d = ix3 b i d := funext fun a => Fin.ext (by match a with | ⟨0, _⟩ => rfl | ⟨1, _⟩ => rfl | ⟨2, _⟩ => rfl)
  have er : ridx_main_v44 (ix3 b i j) d = ix3 b j d := funext fun a => Fin.ext (by match a with | ⟨0, _⟩ => rfl | ⟨1, _⟩ => rfl | ⟨2, _⟩ => rfl)
  rw [el, er]

theorem distA2 (b : Fin 32) (i j : Fin 128) : val_main_v43 (F := Ideal) x0 (ix3 b i j) = dist (patch (val_main_v7 (F := Ideal) x0) b) (patch (val_main_v7 (F := Ideal) x0) b) i j := by
  rw [val_main_v43_apply, val_main_v42_apply, val_main_cst_12_apply, val_main_v41_apply, val_main_v40_apply,
    val_main_cst_11_apply, gramA2]
  rfl

theorem distB2 (b : Fin 32) (i j : Fin 128) : val_main_v48 (F := Ideal) x0 (ix3 b i j) = dist (patch (val_main_v7 (F := Ideal) x0) b) (patch (val_main_v5 (F := Ideal) x0) b) i j := by
  rw [val_main_v48_apply, val_main_v47_apply, val_main_cst_14_apply, val_main_v46_apply, val_main_v45_apply,
    val_main_cst_13_apply, gramB2]
  rfl

/-- The rank-4 array of margins at `(b, i, j, k)`: the positive distance is broadcast along `k`, the negative along `j`. -/
theorem margin2 (b : Fin 32) (i j k : Fin 128) : val_main_v55 (F := Ideal) x0 (ix4 b i j k) = (hinge (dist (patch (val_main_v7 (F := Ideal) x0) b) (patch (val_main_v7 (F := Ideal) x0) b)) (dist (patch (val_main_v7 (F := Ideal) x0) b) (patch (val_main_v5 (F := Ideal) x0) b)) i j k) := by
  have e1 : idx_main_v49 (idx_main_v53 (ix4 b i j k)) = ix3 b i j := funext fun a => Fin.ext (by match a with | ⟨0, _⟩ => rfl | ⟨1, _⟩ => rfl | ⟨2, _⟩ => rfl)
  have e2 : idx_main_v52 (idx_main_v54 (ix4 b i j k)) = ix3 b i k := funext fun a => Fin.ext (by match a with | ⟨0, _⟩ => rfl | ⟨1, _⟩ => rfl | ⟨2, _⟩ => rfl)
  rw [val_main_v55_apply, val_main_v53_apply, val_main_v51_apply, val_main_v50_apply, val_main_cst_15_apply,
    val_main_v49_apply, e1, distA2, val_main_v54_apply, val_main_v52_apply, e2, distB2]
  rfl

theorem mask2 (b : Fin 32) (i j k : Fin 128) : val_main_v57 (F := Ideal) x0 (ix4 b i j k) = below (hinge (dist (patch (val_main_v7 (F := Ideal) x0) b) (patch (val_main_v7 (F := Ideal) x0) b)) (dist (patch (val_main_v7 (F := Ideal) x0) b) (patch (val_main_v5 (F := Ideal) x0) b)) i j k) := by
  rw [val_main_v57_apply, val_main_v56_apply, val_main_cst_16_apply, margin2]
  rfl

theorem pos2 (b : Fin 32) (i j k : Fin 128) :
    val_main_v58 (F := Ideal) x0 (ix4 b i j k) = Scalar.select (below (hinge (dist (patch (val_main_v7 (F := Ideal) x0) b) (patch (val_main_v7 (F := Ideal) x0) b)) (dist (patch (val_main_v7 (F := Ideal) x0) b) (patch (val_main_v5 (F := Ideal) x0) b)) i j k)) (Ideal.ofBits .f32 0x00000000#32) (hinge (dist (patch (val_main_v7 (F := Ideal) x0) b) (patch (val_main_v7 (F := Ideal) x0) b)) (dist (patch (val_main_v7 (F := Ideal) x0) b) (patch (val_main_v5 (F := Ideal) x0) b)) i j k) := by
  rw [val_main_v58_apply, mask2, val_main_call2_v1_apply, val_main_call2_v0_apply, val_main_cst_17_apply, margin2]
  rfl

/-- The sum of the positive margins over the negatives (the zero initial value adds nothing). -/
theorem num2 (b : Fin 32) (i j : Fin 128) :
    val_main_v59 (F := Ideal) x0 (ix3 b i j)
      = ∑ k : Fin 128, Scalar.select (below (hinge (dist (patch (val_main_v7 (F := Ideal) x0) b) (patch (val_main_v7 (F := Ideal) x0) b)) (dist (patch (val_main_v7 (F := Ideal) x0) b) (patch (val_main_v5 (F := Ideal) x0) b)) i j k)) (Ideal.ofBits .f32 0x00000000#32) (hinge (dist (patch (val_main_v7 (F := Ideal) x0) b) (patch (val_main_v7 (F := Ideal) x0) b)) (dist (patch (val_main_v7 (F := Ideal) x0) b) (patch (val_main_v5 (F := Ideal) x0) b)) i j k) := by
  rw [val_main_v59_apply, val_main_cst_18_apply]
  have hz : ∀ y : EReal, FloatOps.ofBits (F := Ideal) .f32 0x00000000#32 + y = y := fun y => by
    rw [Ideal.ofBits_def, Ideal.ofBits_zero_f32, zero_add]
  rw [hz]
  refine Finset.sum_congr rfl fun k _ => ?_
  have e : idx_main_v59 (ix3 b i j) k = ix4 b i j k := funext fun a => Fin.ext (by match a with | ⟨0, _⟩ => rfl | ⟨1, _⟩ => rfl | ⟨2, _⟩ => rfl | ⟨3, _⟩ => rfl)
  rw [e, pos2]

/-- The count of the non-positive margins: counted in integers by the host and converted once. -/
theorem cnt2 (b : Fin 32) (i j : Fin 128) :
    val_main_v62 (F := Ideal) x0 (ix3 b i j)
      = ∑ k : Fin 128, (FloatOps.sitofp (F := Ideal) .f32 ((below (hinge (dist (patch (val_main_v7 (F := Ideal) x0) b) (patch (val_main_v7 (F := Ideal) x0) b)) (dist (patch (val_main_v7 (F := Ideal) x0) b) (patch (val_main_v5 (F := Ideal) x0) b)) i j k)).setWidth 32) : EReal) := by
  rw [val_main_v62_apply]
  unfold val_main_v61
  have hv : val_main_v60 (F := Ideal) x0 = fun i => (val_main_v57 (F := Ideal) x0 i).setWidth 32 := rfl
  rw [hv]
  refine (Cert.IndicatorSum.sitofp_hostReduce_addi reducesTo_S32x128x128x128_S32x128x128_d3 lastAxis h_S_
    (val_main_c_19 (F := Ideal)) rfl (val_main_v57 (F := Ideal) x0) (by decide) (ix3 b i j)).trans ?_
  refine Finset.sum_congr rfl fun (k : Fin 128) _ => ?_
  have e : lastAxis.lift (ix3 b i j) k = ix4 b i j k := funext fun a => Fin.ext (by match a with | ⟨0, _⟩ => rfl | ⟨1, _⟩ => rfl | ⟨2, _⟩ => rfl | ⟨3, _⟩ => rfl)
  exact congrArg (fun w : BitVec 1 => (FloatOps.sitofp (F := Ideal) .f32 (w.setWidth 32) : EReal))
    ((congrArg (val_main_v57 (F := Ideal) x0) e).trans (mask2 x0 b i j k))

/-- The quotient array at `(b, i, j)`. -/
theorem quo2 (b : Fin 32) (i j : Fin 128) : val_main_v67 (F := Ideal) x0 (ix3 b i j) = quo (dist (patch (val_main_v7 (F := Ideal) x0) b) (patch (val_main_v7 (F := Ideal) x0) b)) (dist (patch (val_main_v7 (F := Ideal) x0) b) (patch (val_main_v5 (F := Ideal) x0) b)) i j := by
  rw [val_main_v67_apply, val_main_v66_apply, val_main_v65_apply, val_main_cst_21_apply, val_main_v64_apply,
    val_main_v63_apply, val_main_cst_20_apply, num2, cnt2]
  rfl

/-- The sum over every pair, anchor and positive: the pairs' one-direction losses summed. -/
theorem sum2 (i : S_.Idx) :
    val_main_v68 (F := Ideal) x0 i = Ideal.ofBits .f32 0x00000000#32 + ∑ b : Fin 32, part (patch (val_main_v7 (F := Ideal) x0) b) (patch (val_main_v5 (F := Ideal) x0) b) := by
  rw [val_main_v68_apply, val_main_cst_22_apply, Cert.TrailingSum.sum_idx3]
  refine congrArg (fun g : EReal => Ideal.ofBits .f32 0x00000000#32 + g) (Finset.sum_congr rfl fun b _ => ?_)
  unfold part
  exact Finset.sum_congr rfl fun i _ => Finset.sum_congr rfl fun j _ => quo2 x0 b i j

/-! ## The result -/

/-- The reference's result: each direction's sum over all pairs divided by 524288, the two added. -/
theorem result_eq (i : S_.Idx) :
    val_main_v70 (F := Ideal) x0 i
      = Ideal.div (Ideal.ofBits .f32 0x00000000#32
            + ∑ b : Fin 32, part (patch (val_main_v5 (F := Ideal) x0) b) (patch (val_main_v7 (F := Ideal) x0) b))
          (Ideal.ofBits .f32 0x49000000#32)
        + Ideal.div (Ideal.ofBits .f32 0x00000000#32
            + ∑ b : Fin 32, part (patch (val_main_v7 (F := Ideal) x0) b) (patch (val_main_v5 (F := Ideal) x0) b))
          (Ideal.ofBits .f32 0x49000000#32) := by
  rw [val_main_v70_apply, val_main_v38_apply, val_main_v69_apply, val_main_cst_10_apply, val_main_cst_23_apply, sum1, sum2]
  rfl

end Cert.ReferenceIdeal.RefValue

end
-- ==== Proof.Bridge.lean ====
/-
  The two programs meet.

  Both programs begin with the same eight host operations on the argument (row-normalize, reshape to
  `[32, 2, 128, 512]`, take the two halves of axis 1): the kernel's region finds its two input arrays holding exactly
  the reference's two stacks, as terms — nothing about the normalization is opened. Over those stacks the kernel's
  result is the sum over the 32 pairs of both directions' losses, divided once; the reference's is each direction's sum
  over the pairs divided, the two added. These are equal on the extended reals by `Cert.Triplet.loss_split`.
-/
import proofs.«133893_j4896262717964_1_alg».proof.Proof.Accum
import proofs.«133893_j4896262717964_1_alg».proof.Proof.RefRead

open scoped BigOperators

noncomputable section

namespace Cert.Proof.Bridge

open Idealize.ShloMosaic Idealize.ShloMosaic.TcCoe Idealize.SL.Sem Idealize.ShloMosaic.StableHlo
open Cert.Triplet Cert.KernelIdeal.AccValue

variable (m : (ℓ : Loc Cert.KernelIdeal.nD Cert.KernelIdeal.τ Cert.KernelIdeal.sig) → Buf (Elt Ideal) ℓ)

/-- The region finds the anchors' array at the reference's stack of anchors of the argument. -/
theorem anchors_eq (c : Dev Cert.KernelIdeal.nD) :
    Cert.KernelIdeal.Gen.V m c Cert.KernelIdeal.main_v5
      = Cert.ReferenceIdeal.Read.val_main_v5 (F := Ideal)
          (m ((c : Thread Cert.KernelIdeal.nD Cert.KernelIdeal.τ).loc Cert.KernelIdeal.main_arg0)) := by
  dsimp only [Cert.KernelIdeal.Gen.V, Cert.KernelIdeal.Gen.V0]
  simp only [Cert.KernelIdeal.Gen.hostOps0, Cert.KernelIdeal.Gen.hostOps0_1, List.flatten_cons, List.flatten_nil,
    List.append_nil, List.cons_append, List.nil_append]
  after_results
  rfl

/-- The region finds the companions' array at the reference's stack of companions of the argument. -/
theorem companions_eq (c : Dev Cert.KernelIdeal.nD) :
    Cert.KernelIdeal.Gen.V m c Cert.KernelIdeal.main_v7
      = Cert.ReferenceIdeal.Read.val_main_v7 (F := Ideal)
          (m ((c : Thread Cert.KernelIdeal.nD Cert.KernelIdeal.τ).loc Cert.KernelIdeal.main_arg0)) := by
  dsimp only [Cert.KernelIdeal.Gen.V, Cert.KernelIdeal.Gen.V0]
  simp only [Cert.KernelIdeal.Gen.hostOps0, Cert.KernelIdeal.Gen.hostOps0_1, List.flatten_cons, List.flatten_nil,
    List.append_nil, List.cons_append, List.nil_append]
  after_results
  rfl

/-- The running sum after the last point is the sum over the 32 pairs of both directions' losses. -/
theorem upTo_all (c : Dev Cert.KernelIdeal.nD) :
    upTo m c 31 = ∑ b : Fin 32, total (patch (Cert.KernelIdeal.Gen.V m c Cert.KernelIdeal.main_v5) b)
      (patch (Cert.KernelIdeal.Gen.V m c Cert.KernelIdeal.main_v7) b) := by
  unfold upTo
  rw [Finset.sum_range]
  refine Finset.sum_congr rfl fun b _ => ?_
  unfold pairLoss
  rw [dif_pos b.isLt]

/-- The kernel's result is the reference's term of the same argument. -/
theorem answer_eq (c : Dev Cert.KernelIdeal.nD) :
    answer m c = Cert.ReferenceIdeal.Read.val_main_v70 (F := Ideal)
      (m ((c : Thread Cert.KernelIdeal.nD Cert.KernelIdeal.τ).loc Cert.KernelIdeal.main_arg0)) := by
  funext i
  rw [Cert.ReferenceIdeal.RefValue.result_eq]
  show Ideal.div (upTo m c 31) (Ideal.ofBits .f32 0x49000000#32) = _
  rw [upTo_all, anchors_eq, companions_eq, loss_split]

end Cert.Proof.Bridge

end
-- ==== Proof.lean ====
/-
  The certificate of the triplet-loss kernel against its jnp reference.

  The three frames: the kernel's and its idealization's are the generated frame certificates; the reference has no
  kernel, and its frame is its generated run with the result dropped. The idealization rewrote nothing, so `preserves`
  is `True`. `algebraic`: at the ideal values the kernel's result is the sum over the 32 pairs of patches of both
  directions of the loss, divided by 524288 (Proof/Accum.lean), and the reference's is each direction's sum divided,
  the two added (Proof/RefRead.lean); over stacks that are the same terms of arguments that agree these are one
  extended real (Proof/Bridge.lean, Proof/Spec.lean). The precondition is not used: the one law that is not a
  regrouping of sums, division by a positive real distributing over a sum, holds at the infinities too.
-/
import proofs.«133893_j4896262717964_1_alg».proof.Defs
import proofs.«133893_j4896262717964_1_alg».proof.Proof.Gen.Kernel
import proofs.«133893_j4896262717964_1_alg».proof.Proof.Gen.Kernel.Skeleton
import proofs.«133893_j4896262717964_1_alg».proof.Proof.Gen.Kernel.Launch
import proofs.«133893_j4896262717964_1_alg».proof.Proof.Gen.Kernel.Points
import proofs.«133893_j4896262717964_1_alg».proof.Proof.Gen.Kernel.Frame
import proofs.«133893_j4896262717964_1_alg».proof.Proof.Gen.KernelIdeal
import proofs.«133893_j4896262717964_1_alg».proof.Proof.Gen.KernelIdeal.Skeleton
import proofs.«133893_j4896262717964_1_alg».proof.Proof.Gen.KernelIdeal.Launch
import proofs.«133893_j4896262717964_1_alg».proof.Proof.Gen.KernelIdeal.Points
import proofs.«133893_j4896262717964_1_alg».proof.Proof.Gen.KernelIdeal.Frame
import proofs.«133893_j4896262717964_1_alg».proof.Proof.Gen.ReferenceIdeal
import proofs.«133893_j4896262717964_1_alg».proof.Proof.Gen.ReferenceIdeal.Run
import proofs.«133893_j4896262717964_1_alg».proof.Proof.Gen.ReferenceIdeal.Read
import proofs.«133893_j4896262717964_1_alg».proof.Proof.Gen.Pre_finite_inputs
import proofs.«133893_j4896262717964_1_alg».proof.Proof.Bridge
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel's result is `answer`, the reference's its own term of an argument that agrees, and the
    two are equal (`Bridge.answer_eq`). -/
theorem algebraic : Cert.algebraic_KernelIdeal_ReferenceIdeal := by
  intro m ρ m' ρ' _ hagree
  refine ⟨fun c => Cert.KernelIdeal.AccValue.answer m c, Cert.KernelIdeal.AccValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, hagree c]
  exact (Cert.Proof.Bridge.answer_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
